-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v130)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x128 : Shape := ⟨2, ![1600000, 128]⟩
abbrev S50000x1 : Shape := ⟨2, ![50000, 1]⟩
abbrev S2x1600000 : Shape := ⟨2, ![2, 1600000]⟩
abbrev S1x128 : Shape := ⟨2, ![1, 128]⟩
abbrev S1 : Shape := ⟨1, ![1]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  reducesTo_S_S_d : S_.ReducesTo [] S_

variable [Facts]

def fn_part1 {F : FTy → Type} [FloatOps F] (main_arg5 : FVec F S_ .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S1 .f32 := Host.absf main_arg6
  let main_cst_8 : FVec F S_ .f32 := constant S_ .f32 0x7F800000#32
  let main_v24 : FVec F S1 .f32 := broadcastInDim S1 ![] bcast_S_S1 main_cst_8
  let main_v25 : IVec S1 1 := cmpf .olt main_v23 main_v24
  let main_c_9 : IVec S_ 1 := constantI S_ 1 1#1
  let main_v26 : IVec S_ 1 := (fun x v => Host.reduce IntOp.andi x v reducesTo_S1_S_d0 h_S_) main_v25 main_c_9
  let main_v27 : IVec S_ 1 := andi main_v22 main_v26
  main_v27

def fn {F : FTy → Type} [FloatOps F] (main_arg0 : FVec F S1600000x128 .f32) (main_arg1 : FVec F S50000x1 .f32) (main_arg2 : IVec S2x1600000 32) (main_arg3 : FVec F S1x128 .f32) (main_arg4 : FVec F S1 .f32) (main_arg5 : FVec F S_ .f32) (main_arg6 : FVec F S1 .f32) : IVec S_ 1 :=
  let main_v0 : FVec F S1600000x128 .f32 := Host.absf main_arg0
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S1600000x128 : Shape := ⟨2, ![1600000, 128]⟩
abbrev S50000x1 : Shape := ⟨2, ![50000, 1]⟩
abbrev S2x1600000 : Shape := ⟨2, ![2, 1600000]⟩
abbrev S1x128 : Shape := ⟨2, ![1, 128]⟩
abbrev S1 : Shape := ⟨1, ![1]⟩
abbrev S_ : Shape := ⟨0, ![]⟩
abbrev S1x1 : Shape := ⟨2, ![1, 1]⟩
abbrev S1600000x1 : Shape := ⟨2, ![1600000, 1]⟩
abbrev S16384x128 : Shape := ⟨2, ![16384, 128]⟩
abbrev S16384x1 : Shape := ⟨2, ![16384, 1]⟩
abbrev S16384 : Shape := ⟨1, ![16384]⟩
abbrev S1600000 : Shape := ⟨1, ![1600000]⟩
abbrev S1x1600000 : Shape := ⟨2, ![1, 1600000]⟩
abbrev S50000 : Shape := ⟨1, ![50000]⟩
abbrev S1650000 : Shape := ⟨1, ![1650000]⟩
abbrev S1650000x1 : Shape := ⟨2, ![1650000, 1]⟩

abbrev nBuf : Space → Nat
  | .hbm => 183
  | .vmem => 6
  | .smem => 0
  | _ => 0

abbrev hbmTy0_0 (i : Nat) : BufTy := match i % 128 with
  | 0 => ⟨S1600000x128, .f32⟩
  | 1 => ⟨S50000x1, .f32⟩
  | 2 => ⟨S2x1600000, .i32⟩
  | 3 => ⟨S1x128, .f32⟩
  | 4 => ⟨S1, .f32⟩
  | 5 => ⟨S_, .f32⟩
  | 6 => ⟨S1, .f32⟩
  | 7 => ⟨S1x1, .f32⟩
  | 8 => ⟨S1600000x1, .f32⟩
  | 9 => ⟨S1600000, .f32⟩
  | 10 => ⟨S1x1600000, .i32⟩
  | 11 => ⟨S1600000, .i32⟩
  | 12 => ⟨S1x1600000, .i32⟩
  | 13 => ⟨S1600000, .i32⟩
  | 14 => ⟨S50000, .i32⟩
  | 15 => ⟨S1650000, .i32⟩
  | 16 => ⟨S1650000, .i32⟩
  | 17 => ⟨S_, .f32⟩
  | 18 => ⟨S50000, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S_, .f32⟩
  | 53 => ⟨S50000x1, .f32⟩
  | 54 => ⟨S50000x1, .f32⟩
  | 55 => ⟨S1650000x1, .f32⟩
  | 56 => ⟨S_, .i32⟩
  | 57 => ⟨S1650000, .i32⟩
  | 58 => ⟨S1650000, .i1⟩
  | 59 => ⟨S_, .i32⟩
  | 60 => ⟨S1650000, .i32⟩
  | 61 => ⟨S1650000, .i32⟩
  | 62 => ⟨S1650000, .i32⟩
  | 63 => ⟨S1650000x1, .i32⟩
  | 64 => ⟨S1650000x1, .f32⟩
  | 65 => ⟨S1650000x1, .f32⟩
  | 66 => ⟨S_, .f32⟩
  | 67 => ⟨S50000x1, .f32⟩
  | 68 => ⟨S1650000x1, .i32⟩
  | 69 => ⟨S50000x1, .f32⟩
  | 70 => ⟨S_, .f32⟩
  | 71 => ⟨S_, .f32⟩
  | 72 => ⟨S50000x1, .f32⟩
  | 73 => ⟨S50000x1, .f32⟩
  | 74 => ⟨S50000x1, .f32⟩
  | 75 => ⟨S50000x1, .f32⟩
  | 76 => ⟨S50000x1, .f32⟩
  | 77 => ⟨S1650000x1, .f32⟩
  | 78 => ⟨S_, .i32⟩
  | 79 => ⟨S1650000, .i32⟩
  | 80 => ⟨S1650000, .i1⟩
  | 81 => ⟨S_, .i32⟩
  | 82 => ⟨S1650000, .i32⟩
  | 83 => ⟨S1650000, .i32⟩
  | 84 => ⟨S1650000, .i32⟩
  | 85 => ⟨S1650000x1, .i32⟩
  | 86 => ⟨S1650000x1, .f32⟩
  | 87 => ⟨S1650000x1, .f32⟩
  | 88 => ⟨S_, .f32⟩
  | 89 => ⟨S50000x1, .f32⟩
  | 90 => ⟨S1650000x1, .i32⟩
  | 91 => ⟨S50000x1, .f32⟩
  | 92 => ⟨S_, .f32⟩
  | 93 => ⟨S_, .f32⟩
  | 94 => ⟨S50000x1, .f32⟩
  | 95 => ⟨S50000x1, .f32⟩
  | 96 => ⟨S50000x1, .f32⟩
  | 97 => ⟨S50000x1, .f32⟩
  | 98 => ⟨S50000x1, .f32⟩
  | 99 => ⟨S1650000x1, .f32⟩
  | 100 => ⟨S_, .i32⟩
  | 101 => ⟨S1650000, .i32⟩
  | 102 => ⟨S1650000, .i1⟩
  | 103 => ⟨S_, .i32⟩
  | 104 => ⟨S1650000, .i32⟩
  | 105 => ⟨S1650000, .i32⟩
  | 106 => ⟨S1650000, .i32⟩
  | 107 => ⟨S1650000x1, .i32⟩
  | 108 => ⟨S1650000x1, .f32⟩
  | 109 => ⟨S1650000x1, .f32⟩
  | 110 => ⟨S_, .f32⟩
  | 111 => ⟨S50000x1, .f32⟩
  | 112 => ⟨S1650000x1, .i32⟩
  | 113 => ⟨S50000x1, .f32⟩
  | 114 => ⟨S_, .f32⟩
  | 115 => ⟨S_, .f32⟩
  | 116 => ⟨S50000x1, .f32⟩
  | 117 => ⟨S50000x1, .f32⟩
  | 118 => ⟨S50000x1, .f32⟩
  | 119 => ⟨S50000x1, .f32⟩
  | 120 => ⟨S50000x1, .f32⟩
  | 121 => ⟨S1650000x1, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S1600000x128, .f32⟩

abbrev hbmTy0_1 (i : Nat) : BufTy := match i % 128 with
  | 0 => ⟨S1650000, .i32⟩
  | 1 => ⟨S1650000x1, .i32⟩
  | 2 => ⟨S1650000x1, .f32⟩
  | 3 => ⟨S1650000x1, .f32⟩
  | 4 => ⟨S_, .f32⟩
  | 5 => ⟨S50000x1, .f32⟩
  | 6 => ⟨S1650000x1, .i32⟩
  | 7 => ⟨S50000x1, .f32⟩
  | 8 => ⟨S_, .f32⟩
  | 9 => ⟨S_, .f32⟩
  | 10 => ⟨S50000x1, .f32⟩
  | 11 => ⟨S50000x1, .f32⟩
  | 12 => ⟨S50000x1, .f32⟩
  | 13 => ⟨S50000x1, .f32⟩
  | 14 => ⟨S50000x1, .f32⟩
  | 15 => ⟨S1650000x1, .f32⟩
  | 16 => ⟨S_, .i32⟩
  | 17 => ⟨S1650000, .i32⟩
  | 18 => ⟨S1650000, .i1⟩
  | 19 => ⟨S_, .i32⟩
  | 20 => ⟨S1650000, .i32⟩
  | 21 => ⟨S1650000, .i32⟩
  | 22 => ⟨S1650000, .i32⟩
  | 23 => ⟨S1650000x1, .i32⟩
  | 24 => ⟨S1650000x1, .f32⟩
  | 25 => ⟨S1650000x1, .f32⟩
  | 26 => ⟨S_, .f32⟩
  | 27 => ⟨S50000x1, .f32⟩
  | 28 => ⟨S1650000x1, .i32⟩
  | 29 => ⟨S50000x1, .f32⟩
  | 30 => ⟨S_, .f32⟩
  | 31 => ⟨S_, .f32⟩
  | 32 => ⟨S50000x1, .f32⟩
  | 33 => ⟨S50000x1, .f32⟩
  | 34 => ⟨S50000x1, .f32⟩
  | 35 => ⟨S50000x1, .f32⟩
  | 36 => ⟨S50000x1, .f32⟩
  | 37 => ⟨S_, .f32⟩
  | 38 => ⟨S1, .f32⟩
  | 39 => ⟨S1, .f32⟩
  | 40 => ⟨S1, .f32⟩
  | 41 => ⟨S1, .f32⟩
  | 42 => ⟨S1, .i1⟩
  | 43 => ⟨S1, .f32⟩
  | 44 => ⟨S1, .f32⟩
  | 45 => ⟨S1, .f32⟩
  | 46 => ⟨S1, .f32⟩
  | 47 => ⟨S1, .f32⟩
  | 48 => ⟨S1, .f32⟩
  | 49 => ⟨S1, .f32⟩
  | 50 => ⟨S1, .f32⟩
  | 51 => ⟨S1x1, .f32⟩
  | 52 => ⟨S50000x1, .f32⟩
  | 53 => ⟨S50000x1, .f32⟩
  | 54 => ⟨S50000x1, .f32⟩
  | _ => ⟨S1600000x128, .f32⟩

abbrev hbmTy (i : Nat) : BufTy := match i / 128 with
  | 0 => hbmTy0_0 i
  | 1 => hbmTy0_1 i
  | _ => ⟨S1600000x128, .f32⟩

abbrev bufTy : (tb : Table) → Fin (tcTables nBuf tb) → BufTy
  | .hbm, ⟨i, _⟩ => hbmTy i
  | .local _ .vmem, ⟨0, _⟩ => ⟨S16384x128, .f32⟩
  | .local _ .vmem, ⟨1, _⟩ => ⟨S16384x128, .f32⟩
  | .local _ .vmem, ⟨2, _⟩ => ⟨S1x128, .f32⟩
  | .local _ .vmem, ⟨3, _⟩ => ⟨S1x1, .f32⟩
  | .local _ .vmem, ⟨4, _⟩ => ⟨S16384x1, .f32⟩
  | .local _ .vmem, ⟨5, _⟩ => ⟨S16384x1, .f32⟩
  | _, _ => ⟨S1600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_14 : Ref sig .tc := ⟨.hbm, 100, rfl⟩
abbrev main_v73 : Ref sig .tc := ⟨.hbm, 101, rfl⟩
abbrev main_v74 : Ref sig .tc := ⟨.hbm, 102, rfl⟩
abbrev main_c_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_18 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_20 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_21 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_22 : Ref sig .tc := ⟨.hbm, 144, rfl⟩
abbrev main_v109 : Ref sig .tc := ⟨.hbm, 145, rfl⟩
abbrev main_v110 : Ref sig .tc := ⟨.hbm, 146, rfl⟩
abbrev main_c_23 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_24 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_25 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call2_cst : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_call2_v5 : Ref sig .tc := ⟨.hbm, 171, rfl⟩
abbrev main_call2_v6 : Ref sig .tc := ⟨.hbm, 172, rfl⟩
abbrev main_call2_v7 : Ref sig .tc := ⟨.hbm, 173, rfl⟩
abbrev main_call2_v8 : Ref sig .tc := ⟨.hbm, 174, rfl⟩
abbrev main_call2_v9 : Ref sig .tc := ⟨.hbm, 175, rfl⟩
abbrev main_call2_v10 : Ref sig .tc := ⟨.hbm, 176, rfl⟩
abbrev main_call2_v11 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1_S1x1 : S1.ShapeCasts S1x1
  inb_S16384x128_S16384x128_0_0 : ∀ a, (![0, 0] : Fin 2 → Nat) a + S16384x128.size a ≤ S16384x128.size a
  h_S16384x128 : 0 < S16384x128.numel
  inb_S1x128_S1x128_0_0 : ∀ a, (![0, 0] : Fin 2 → Nat) a + S1x128.size a ≤ S1x128.size a
  h_S1x128 : 0 < S1x128.numel
  broadcasts_S1x128_S16384x128 : S1x128.Broadcasts S16384x128
  reduces_S16384x128_S16384 : S16384x128.Reduces [1] S16384
  shapeCasts_S16384_S16384x1 : S16384.ShapeCasts S16384x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16384x1 : S1x1.Broadcasts S16384x1
  inb_S16384x1_S16384x1_0_0 : ∀ a, (![0, 0] : Fin 2 → Nat) a + S16384x1.size a ≤ S16384x1.size a
  h_S16384x1 : 0 < S16384x1.numel
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S_S50000x1 : S_.BroadcastsInDim S50000x1 (![] : Fin 0 → Fin S50000x1.rank)
  bcast_S_S1 : S_.BroadcastsInDim S1 (![] : Fin 0 → Fin S1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x128.size a < S1600000x128.size a
  hwx0_0 : ∀ i : grid0.Coords, EltTy.bits .f32 = 32 ∨ (Rect.unit (s := S1600000x128) (fun a => cc0_transform_0 i a * S16384x128.size a) (fun a => (Pipeline.Clip.of (cc0_transform_0 i a) (S16384x128.size a) (S1600000x128.size a)).extent (S16384x128.size a)) fun a => Pipeline.Clip.inb (Pipeline.Clip.ok_of (hstart0_0 i a))).WholeWords (EltTy.packing .f32)
  hwxs0_0 : ∀ i : grid0.Coords, EltTy.bits .f32 = 32 ∨ (Rect.unit (s := S16384x128) (fun _ => 0) (fun a => (Pipeline.Clip.of (cc0_transform_0 i a) (S16384x128.size a) (S1600000x128.size a)).extent (S16384x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S16384x1.size a < S1600000x1.size a
  hwx0_3 : ∀ i : grid0.Coords, EltTy.bits .f32 = 32 ∨ (Rect.unit (s := S1600000x1) (fun a => cc0_transform_3 i a * S16384x1.size a) (fun a => (Pipeline.Clip.of (cc0_transform_3 i a) (S16384x1.size a) (S1600000x1.size a)).extent (S16384x1.size a)) fun a => Pipeline.Clip.inb (Pipeline.Clip.ok_of (hstart0_3 i a))).WholeWords (EltTy.packing .f32)
  hwxs0_3 : ∀ i : grid0.Coords, EltTy.bits .f32 = 32 ∨ (Rect.unit (s := S16384x1) (fun _ => 0) (fun a => (Pipeline.Clip.of (cc0_transform_3 i a) (S16384x1.size a) (S1600000x1.size a)).extent (S16384x1.size a)) fun a => (Nat.zero_add _).trans_le (Pipeline.Clip.extent_le (Pipeline.Clip.ok_of (hstart0_3 i a)))).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

abbrev win0_0 : Pipeline.Window sig grid0 :=
  Pipeline.Window.ofSpecClip (Memref.whole main_arg0) S16384x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S16384x1.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1600000x128 : Shape := ⟨2, ![1600000, 128]⟩
abbrev S50000x1 : Shape := ⟨2, ![50000, 1]⟩
abbrev S2x1600000 : Shape := ⟨2, ![2, 1600000]⟩
abbrev S1x128 : Shape := ⟨2, ![1, 128]⟩
abbrev S1 : Shape := ⟨1, ![1]⟩
abbrev S_ : Shape := ⟨0, ![]⟩
abbrev S128x1 : Shape := ⟨2, ![128, 1]⟩
abbrev S1600000x1 : Shape := ⟨2, ![1600000, 1]⟩
abbrev S1x1 : Shape := ⟨2, ![1, 1]⟩
abbrev S1600000 : Shape := ⟨1, ![1600000]⟩
abbrev S1x1600000 : Shape := ⟨2, ![1, 1600000]⟩
abbrev S50000 : Shape := ⟨1, ![50000]⟩
abbrev S1650000 : Shape := ⟨1, ![1650000]⟩
abbrev S1650000x1 : Shape := ⟨2, ![1650000, 1]⟩

abbrev nBuf : Space → Nat
  | .hbm => 194
  | .vmem => 0
  | .smem => 0
  | _ => 0

abbrev hbmTy0_0 (i : Nat) : BufTy := match i % 128 with
  | 0 => ⟨S1600000x128, .f32⟩
  | 1 => ⟨S50000x1, .f32⟩
  | 2 => ⟨S2x1600000, .i32⟩
  | 3 => ⟨S1x128, .f32⟩
  | 4 => ⟨S1, .f32⟩
  | 5 => ⟨S_, .f32⟩
  | 6 => ⟨S1, .f32⟩
  | 7 => ⟨S128x1, .f32⟩
  | 8 => ⟨S1600000x1, .f32⟩
  | 9 => ⟨S1x1, .f32⟩
  | 10 => ⟨S1600000x1, .f32⟩
  | 11 => ⟨S1600000x1, .f32⟩
  | 12 => ⟨S1600000x1, .f32⟩
  | 13 => ⟨S1600000x1, .f32⟩
  | 14 => ⟨S_, .f32⟩
  | 15 => ⟨S1600000x1, .f32⟩
  | 16 => ⟨S1600000x1, .f32⟩
  | 17 => ⟨S_, .f32⟩
  | 18 => ⟨S1600000x1, .f32⟩
  | 19 => ⟨S1600000x1, .f32⟩
  | 20 => ⟨S1600000, .f32⟩
  | 21 => ⟨S1x1600000, .i32⟩
  | 22 => ⟨S1600000, .i32⟩
  | 23 => ⟨S1x1600000, .i32⟩
  | 24 => ⟨S1600000, .i32⟩
  | 25 => ⟨S50000, .i32⟩
  | 26 => ⟨S1650000, .i32⟩
  | 27 => ⟨S1650000, .i32⟩
  | 28 => ⟨S_, .f32⟩
  | 29 => ⟨S50000, .f32⟩
  | 30 => ⟨S1650000, .f32⟩
  | 31 => ⟨S_, .f32⟩
  | 32 => ⟨S50000, .f32⟩
  | 33 => ⟨S1650000x1, .i32⟩
  | 34 => ⟨S50000, .f32⟩
  | 35 => ⟨S_, .f32⟩
  | 36 => ⟨S50000, .f32⟩
  | 37 => ⟨S50000, .i1⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S1650000, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000, .f32⟩
  | 62 => ⟨S1650000, .f32⟩
  | 63 => ⟨S_, .f32⟩
  | 64 => ⟨S50000x1, .f32⟩
  | 65 => ⟨S50000x1, .f32⟩
  | 66 => ⟨S1650000x1, .f32⟩
  | 67 => ⟨S_, .i32⟩
  | 68 => ⟨S1650000, .i32⟩
  | 69 => ⟨S1650000, .i1⟩
  | 70 => ⟨S_, .i32⟩
  | 71 => ⟨S1650000, .i32⟩
  | 72 => ⟨S1650000, .i32⟩
  | 73 => ⟨S1650000, .i32⟩
  | 74 => ⟨S1650000x1, .i32⟩
  | 75 => ⟨S1650000x1, .f32⟩
  | 76 => ⟨S1650000x1, .f32⟩
  | 77 => ⟨S_, .f32⟩
  | 78 => ⟨S50000x1, .f32⟩
  | 79 => ⟨S1650000x1, .i32⟩
  | 80 => ⟨S50000x1, .f32⟩
  | 81 => ⟨S_, .f32⟩
  | 82 => ⟨S_, .f32⟩
  | 83 => ⟨S50000x1, .f32⟩
  | 84 => ⟨S50000x1, .f32⟩
  | 85 => ⟨S50000x1, .f32⟩
  | 86 => ⟨S50000x1, .f32⟩
  | 87 => ⟨S50000x1, .f32⟩
  | 88 => ⟨S1650000x1, .f32⟩
  | 89 => ⟨S_, .i32⟩
  | 90 => ⟨S1650000, .i32⟩
  | 91 => ⟨S1650000, .i1⟩
  | 92 => ⟨S_, .i32⟩
  | 93 => ⟨S1650000, .i32⟩
  | 94 => ⟨S1650000, .i32⟩
  | 95 => ⟨S1650000, .i32⟩
  | 96 => ⟨S1650000x1, .i32⟩
  | 97 => ⟨S1650000x1, .f32⟩
  | 98 => ⟨S1650000x1, .f32⟩
  | 99 => ⟨S_, .f32⟩
  | 100 => ⟨S50000x1, .f32⟩
  | 101 => ⟨S1650000x1, .i32⟩
  | 102 => ⟨S50000x1, .f32⟩
  | 103 => ⟨S_, .f32⟩
  | 104 => ⟨S_, .f32⟩
  | 105 => ⟨S50000x1, .f32⟩
  | 106 => ⟨S50000x1, .f32⟩
  | 107 => ⟨S50000x1, .f32⟩
  | 108 => ⟨S50000x1, .f32⟩
  | 109 => ⟨S50000x1, .f32⟩
  | 110 => ⟨S1650000x1, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000x1, .f32⟩
  | 120 => ⟨S1650000x1, .f32⟩
  | 121 => ⟨S_, .f32⟩
  | 122 => ⟨S50000x1, .f32⟩
  | 123 => ⟨S1650000x1, .i32⟩
  | 124 => ⟨S50000x1, .f32⟩
  | 125 => ⟨S_, .f32⟩
  | 126 => ⟨S_, .f32⟩
  | 127 => ⟨S50000x1, .f32⟩
  | _ => ⟨S1600000x128, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x1, .f32⟩
  | 4 => ⟨S1650000x1, .f32⟩
  | 5 => ⟨S_, .i32⟩
  | 6 => ⟨S1650000, .i32⟩
  | 7 => ⟨S1650000, .i1⟩
  | 8 => ⟨S_, .i32⟩
  | 9 => ⟨S1650000, .i32⟩
  | 10 => ⟨S1650000, .i32⟩
  | 11 => ⟨S1650000, .i32⟩
  | 12 => ⟨S1650000x1, .i32⟩
  | 13 => ⟨S1650000x1, .f32⟩
  | 14 => ⟨S1650000x1, .f32⟩
  | 15 => ⟨S_, .f32⟩
  | 16 => ⟨S50000x1, .f32⟩
  | 17 => ⟨S1650000x1, .i32⟩
  | 18 => ⟨S50000x1, .f32⟩
  | 19 => ⟨S_, .f32⟩
  | 20 => ⟨S_, .f32⟩
  | 21 => ⟨S50000x1, .f32⟩
  | 22 => ⟨S50000x1, .f32⟩
  | 23 => ⟨S50000x1, .f32⟩
  | 24 => ⟨S50000x1, .f32⟩
  | 25 => ⟨S50000x1, .f32⟩
  | 26 => ⟨S1650000x1, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000x1, .f32⟩
  | 36 => ⟨S1650000x1, .f32⟩
  | 37 => ⟨S_, .f32⟩
  | 38 => ⟨S50000x1, .f32⟩
  | 39 => ⟨S1650000x1, .i32⟩
  | 40 => ⟨S50000x1, .f32⟩
  | 41 => ⟨S_, .f32⟩
  | 42 => ⟨S_, .f32⟩
  | 43 => ⟨S50000x1, .f32⟩
  | 44 => ⟨S50000x1, .f32⟩
  | 45 => ⟨S50000x1, .f32⟩
  | 46 => ⟨S50000x1, .f32⟩
  | 47 => ⟨S50000x1, .f32⟩
  | 48 => ⟨S_, .f32⟩
  | 49 => ⟨S1, .f32⟩
  | 50 => ⟨S1, .f32⟩
  | 51 => ⟨S1, .f32⟩
  | 52 => ⟨S1, .f32⟩
  | 53 => ⟨S1, .i1⟩
  | 54 => ⟨S1, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S1x1, .f32⟩
  | 63 => ⟨S50000x1, .f32⟩
  | 64 => ⟨S50000x1, .f32⟩
  | 65 => ⟨S50000x1, .f32⟩
  | _ => ⟨S1600000x128, .f32⟩

abbrev hbmTy (i : Nat) : BufTy := match i / 128 with
  | 0 => hbmTy0_0 i
  | 1 => hbmTy0_1 i
  | _ => ⟨S1600000x128, .f32⟩

abbrev bufTy : (tb : Table) → Fin (tcTables nBuf tb) → BufTy
  | .hbm, ⟨i, _⟩ => hbmTy i
  | _, _ => ⟨S1600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v27 : Ref sig .tc := ⟨.hbm, 42, rfl⟩
abbrev main_c : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_16 : Ref sig .tc := ⟨.hbm, 111, rfl⟩
abbrev main_v82 : Ref sig .tc := ⟨.hbm, 112, rfl⟩
abbrev main_v83 : Ref sig .tc := ⟨.hbm, 113, rfl⟩
abbrev main_c_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_20 : Ref sig .tc := ⟨.hbm, 133, rfl⟩
abbrev main_v100 : Ref sig .tc := ⟨.hbm, 134, rfl⟩
abbrev main_v101 : Ref sig .tc := ⟨.hbm, 135, rfl⟩
abbrev main_c_21 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_22 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_24 : Ref sig .tc := ⟨.hbm, 155, rfl⟩
abbrev main_v118 : Ref sig .tc := ⟨.hbm, 156, rfl⟩
abbrev main_v119 : Ref sig .tc := ⟨.hbm, 157, rfl⟩
abbrev main_c_25 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_26 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_27 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_v8 : Ref sig .tc := ⟨.hbm, 185, rfl⟩
abbrev main_call2_v9 : Ref sig .tc := ⟨.hbm, 186, rfl⟩
abbrev main_call2_v10 : Ref sig .tc := ⟨.hbm, 187, rfl⟩
abbrev main_call2_v11 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩

abbrev nD : Nat := 1
abbrev τ : Topo := Topo.v7x

variable {F : FTy → Type} [FloatOps F]

class Facts₀ : Prop where
  transposes_S1x128_S128x1_1_0 : S1x128.Transposes [1, 0] S128x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  shapeCasts_S1600000x1_S1600000 : S1600000x1.ShapeCasts S1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S_S50000x1 : S_.BroadcastsInDim S50000x1 (![] : Fin 0 → Fin S50000x1.rank)
  bcast_S_S1 : S_.BroadcastsInDim S1 (![] : Fin 0 → Fin S1.rank)
  bcast_S1x1_S50000x1_0_1 : S1x1.BroadcastsInDim S50000x1 (![0, 1] : Fin 2 → Fin S50000x1.rank)
  dot_S1600000x128_S128x1_S1600000x1_1_0_0_1_n_n_wf : DotDims.WF S1600000x128 S128x1 S1600000x1 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1

variable [Facts₀]

def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

class Facts : Prop extends Facts₀ where

variable [Facts]
-- ==== Proof.KernelAround.lean ====
/-
  The program's run around its one region, for any float instance.

  @main is one host line (the bias reshaped to [1, 1]), the region, and then 174 host lines in seven stretches.
  The region's grid has 98 points; point t stages rows 16384·t … 16384·t + 16383 of the edge features (block
  [16384, 128]) and of the result column (block [16384, 1]).  98 · 16384 = 1605632 exceeds the 1600000 rows, so the
  last block overhangs both arrays by 5632 rows: its fetch fills only the first 10752 rows of the staging buffer
  and leaves the others at words nothing names, and its write-back writes only those 10752 rows.  The weight row
  [1, 128] and the bias [1, 1] are whole-array blocks, fetched once.

  The body reads the three input buffers and overwrites the whole result buffer, so every input buffer is left as it
  was found.  What the result buffer holds is named here (the body's one payload of what the input buffers hold) but
  the frame run below does not use it: it forgets the result window, hands the body its buffer at any contents and
  takes it back at any contents.  That is enough for "the run ends and the arguments are unchanged": the arguments
  staged by the region are inputs, the others are not touched by the region, and none of the later host lines
  writes an argument.
-/
import proofs.«117032_j18150531792933_1_alg».proof.Proof.Gen.Kernel.Launch
import proofs.«117032_j18150531792933_1_alg».proof.Proof.Gen.Kernel.Skeleton
import proofs.«117032_j18150531792933_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host lines after the region, in order. -/
abbrev tailOps : List (List (HloOp τ sig (Elt F))) :=
  [hostOps1, hostOps1_1, hostOps1_2, hostOps1_3, hostOps1_4, hostOps1_5, hostOps1_6]

/-- The core's buffer contents when the region is entered: after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the later lines, entered at the contents the first line leaves. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! ### What the later lines write

Each later line writes one buffer of its own, and none of them is an argument of @main, the reshaped bias or the
region's result: the nine buffers listed here. -/

/-- The arguments, the reshaped bias and the region's result. -/
abbrev kept : List (Ref sig .tc) :=
  [main_arg0, main_arg1, main_arg2, main_arg3, main_arg4, main_arg5, main_arg6, main_v0, main_v1]

/-- Every other TensorCore buffer. -/
def written : Finset (Ref sig .tc) := Finset.univ.filter fun b => b ∉ kept

theorem mem_written {y : Ref sig .tc} (hy : y ∉ kept) : y ∈ written :=
  Finset.mem_filter.mpr ⟨Finset.mem_univ _, hy⟩

/-- A line whose one written buffer is not among the nine writes only into `written`. -/
theorem writes_sub {y : Ref sig .tc} {S : Finset (DevRef τ sig)} (hS : S = {Proc.devRef .tc y}) (hy : y ∉ kept) :
    ∀ b : Ref sig .tc, Proc.devRef .tc b ∈ S → b ∈ written := by
  intro b hb
  rw [hS, Finset.mem_singleton] at hb
  exact (Proc.devRef_injective _ hb) ▸ mem_written hy

abbrev WritesOk (op : HloOp τ sig (Elt F)) : Prop := ∀ b : Ref sig .tc, Proc.devRef .tc b ∈ op.writes → b ∈ written

theorem hostOps1_wr : (hostOps1 : List (HloOp τ sig (Elt F))).Forall WritesOk := by
  simp only [List.Forall]; repeat' apply And.intro
  all_goals exact writes_sub rfl (by decide)
theorem hostOps1_1_wr : (hostOps1_1 : List (HloOp τ sig (Elt F))).Forall WritesOk := by
  simp only [List.Forall]; repeat' apply And.intro
  all_goals exact writes_sub rfl (by decide)
theorem hostOps1_2_wr : (hostOps1_2 : List (HloOp τ sig (Elt F))).Forall WritesOk := by
  simp only [List.Forall]; repeat' apply And.intro
  all_goals exact writes_sub rfl (by decide)
theorem hostOps1_3_wr : (hostOps1_3 : List (HloOp τ sig (Elt F))).Forall WritesOk := by
  simp only [List.Forall]; repeat' apply And.intro
  all_goals exact writes_sub rfl (by decide)
theorem hostOps1_4_wr : (hostOps1_4 : List (HloOp τ sig (Elt F))).Forall WritesOk := by
  simp only [List.Forall]; repeat' apply And.intro
  all_goals exact writes_sub rfl (by decide)
theorem hostOps1_5_wr : (hostOps1_5 : List (HloOp τ sig (Elt F))).Forall WritesOk := by
  simp only [List.Forall]; repeat' apply And.intro
  all_goals exact writes_sub rfl (by decide)
theorem hostOps1_6_wr : (hostOps1_6 : List (HloOp τ sig (Elt F))).Forall WritesOk := by
  simp only [List.Forall]; repeat' apply And.intro
  all_goals exact writes_sub rfl (by decide)

/-- The later lines write only into `written`. -/
theorem sfx_T : ∀ ops ∈ (tailOps : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl | rfl | rfl | rfl | rfl | rfl | rfl
  · exact (List.forall_iff_forall_mem.mp hostOps1_wr) op hop
  · exact (List.forall_iff_forall_mem.mp hostOps1_1_wr) op hop
  · exact (List.forall_iff_forall_mem.mp hostOps1_2_wr) op hop
  · exact (List.forall_iff_forall_mem.mp hostOps1_3_wr) op hop
  · exact (List.forall_iff_forall_mem.mp hostOps1_4_wr) op hop
  · exact (List.forall_iff_forall_mem.mp hostOps1_5_wr) op hop
  · exact (List.forall_iff_forall_mem.mp hostOps1_6_wr) op hop

/-- The region's four arrays are among the nine. -/
theorem arr_kept : ∀ w : Fin 4, Pipeline.arrRef spec0 w ∈ kept := by decide

/-- So the later lines write no array of the region. -/
theorem sfx_keeps : ∀ ops ∈ (tailOps : List (List (HloOp τ sig (Elt F)))), ∀ op ∈ ops,
    ∀ w, Proc.devRef .tc (Pipeline.arrRef spec0 w) ∉ op.writes := fun ops hops op hop w hw =>
  (Finset.mem_filter.mp (sfx_T ops hops op hop _ hw)).2 (arr_kept w)

/-- The one line before the region writes the reshaped bias, no argument. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes,
      Finset.mem_singleton]
    exact StableHlo.devRef_ne_of_ne hb))

end Cert.Kernel.Around

end
-- ==== Proof.KernelRegion.lean ====
/-
  The region, point by point, for any float instance: what each staging buffer holds when the body runs and when
  it returns, the body's triple, and the run of the whole program to the end with the arguments unchanged.

  At point t the edge-feature buffer holds the array's rows 16384·t … on the rows the fetch filled and unnamed
  words below them (only at the last point, whose block overhangs the array); the weight row and the bias hold the
  whole arrays; the result buffer holds anything.  The body loads the three inputs whole, forms one value and stores
  it over the whole result buffer.
-/
import proofs.«117032_j18150531792933_1_alg».proof.Proof.KernelAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it: for the edge features and the result
    the rows of the block that lie inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The edge-feature block filled out to the whole staging buffer with the zero word. -/
def xfull (c : Dev nD) (t : Fin cfg0.N) : Vec F S16384x128 .f32 :=
  win0_0.fill (grid0.coords t) (fun _ => Scalar.ofBits .f32 0#32) (iblk m c 0 t)

/-! ## The body's triple -/

abbrev r0 : Rect S16384x128 := Rect.unit (s := S16384x128) ![0, 0] S16384x128.size inb_S16384x128_S16384x128_0_0
abbrev r1 : Rect S1x128 := Rect.unit (s := S1x128) ![0, 0] S1x128.size inb_S1x128_S1x128_0_0
abbrev r2 : Rect S1x1 := Rect.unit (s := S1x1) ![0, 0] S1x1.size inb_S1x1_S1x1_0_0
abbrev r3 : Rect S16384x1 := Rect.unit (s := S16384x1) ![0, 0] S16384x1.size inb_S16384x1_S16384x1_0_0

/-- What the body leaves in the result buffer, from what the three input buffers hold: its one whole store. -/
def out3 (x0 : Vec F S16384x128 .f32) (x1 : Vec F S1x128 .f32) (x2 : Vec F S1x1 .f32) : Vec F S16384x1 .f32 :=
  View.canon [⟨r3, k0_pay1 (View.ld x0 r0) (View.ld x1 r1) (View.ld x2 r2)⟩]

theorem cover3 (p0 : Vec F S16384x1 .f32) (y : S16384x1.Idx) :
    ∃ pc ∈ ([⟨r3, p0⟩] : List (View.Piece (Elt F) S16384x1 .f32)), y ∈ pc.1.set :=
  View.cover_of_tiled [⟨r3, p0⟩] S16384x1.size (by rfl) y

set_option maxHeartbeats 1000000 in
/-- The body on whole staging memrefs: the inputs' at contents x0, x1, x2 and the result's at anything; it returns
    holding the inputs' as they were and the result's at `out3` of them. -/
theorem sound_kernel (c : Dev nD) (E : Set ℕ) (i : grid0.Coords)
    (arg1 : Memref sig .tc .vmem S16384x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S16384x1 .f32) (harg4 : arg4.IsWhole)
    (x0 : Vec F S16384x128 .f32) (x1 : Vec F S1x128 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out3 x0 x1 x2)) -∗ K ⟨⟩))
      ⊢ wp frame (wpE (defs₀ (F := F)) Variants.none c none) E (cc0__edge_weight_kernel i arg1 harg1 arg2 harg2 arg3 harg3 arg4 harg4) K := by
  simp only [cc0__edge_weight_kernel_eq_skeleton]; unfold cc0__edge_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the pipeline on core c: the arrays as the region finds them; after the body at point t the
    edge-feature buffer at its block filled out with zero words, the weight row and the bias at their blocks, the
    result buffer at the body's value of those; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => out3 (xfull m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xfull m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (xfull m c t) (iblk m c 1 t) (iblk m c 2 t) := by dsimp only [dats]

/-- The edge-feature buffer, fetched at every point: the block on the rows the fetch fills, d elsewhere. -/
theorem before0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq]; try rfl)

/-- The weight row's buffer holds the weight row at every point, fetched there or not. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- and the bias's buffer the bias. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- The filled-out block cut back to the rows inside the array is the block. -/
theorem cut_xfull (c : Dev nD) (t : Fin cfg0.N) : win0_0.cut (grid0.coords t) (xfull m c t) = iblk m c 0 t :=
  win0_0.cut_fill _ _ _

/-! ## The body obligation with the result window forgotten -/

/-- The result window is forgotten: nothing below reads what the kernel leaves there. -/
def forgets : Fin 4 → Bool := fun w => w.val == 3

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, cut_xfull]
  iintro ⟨HΦ, Ho, ⟨%d0, H0⟩, ⟨%d1, H1⟩, ⟨%d2, H2⟩, ⟨%X3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates; the region's input arrays end as the region found them and
    every unscoped buffer the later lines do not write as it was when the region was entered. -/
theorem run_main : θ_run defs (onTc (τ := τ) (main (F := F))) (s₀ m ρ)
    (Pipeline.RDat.FramePostR (cfgs 0) (fun c => (dats m 0 c).toRForget forgets) written (V m)) :=
  Pipeline.RDat.θ_run_frame_around_T cfgs (0 : Fin 1) launch0 defs₀ Variants.none (fun c => (dats m 0 c).toRForget forgets) written m ρ main
    (hbody := fun c => (body_obligation m c).toRForget) (hshare := fun c => ((dats m 0 c).toRForget forgets).share_full fun _ => rfl)
    (howed := fun _ _ => rfl) (V₀ := V0 m) (opss := tailOps) (hsub := sfx_sub) (hfresh := sfx_fresh) (hkeep := sfx_keeps) (hT := sfx_T)
    (hmain := hmain m Variants.none) (hA := A_eq m) (hΦ := fun _ _ => rfl)

/-- An argument that is no array of the region is untouched by the region and written by no later line. -/
theorem rest_arg (b : Ref sig .tc) (hs : b.isScoped = false) (ha : ∀ w, (spec0 w).arr.view.ref ≠ b) (hk : b ∈ kept) :
    b ∈ Pipeline.restRefs sig (cfgs 0).spec \ written :=
  Finset.mem_sdiff.mpr ⟨Pipeline.mem_restRefs_of b hs ha, fun h => (Finset.mem_filter.mp h).2 hk⟩

/-- The frame: the run ends and the seven arguments hold what they held. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Eq.mp (congrFun (((dats m 0 c).toRForget forgets).ArrAt_in 0 rfl _) _) ((h c).1 0)).trans ((A_eq m c 0).trans (V_of_ne m c main_arg0 (by decide))),
     ((h c).2 main_arg1 (rest_arg main_arg1 (by decide) (by decide) (by decide))).trans (V_of_ne m c main_arg1 (by decide)),
     ((h c).2 main_arg2 (rest_arg main_arg2 (by decide) (by decide) (by decide))).trans (V_of_ne m c main_arg2 (by decide)),
     (Eq.mp (congrFun (((dats m 0 c).toRForget forgets).ArrAt_in 1 rfl _) _) ((h c).1 1)).trans ((A_eq m c 1).trans (V_of_ne m c main_arg3 (by decide))),
     ((h c).2 main_arg4 (rest_arg main_arg4 (by decide) (by decide) (by decide))).trans (V_of_ne m c main_arg4 (by decide)),
     ((h c).2 main_arg5 (rest_arg main_arg5 (by decide) (by decide) (by decide))).trans (V_of_ne m c main_arg5 (by decide)),
     ((h c).2 main_arg6 (rest_arg main_arg6 (by decide) (by decide) (by decide))).trans (V_of_ne m c main_arg6 (by decide))⟩) (run_main m ρ)

end Cert.Kernel.Around

end
-- ==== Proof.KernelIdealAround.lean ====
/-
  The program's run around its one region, for any float instance.

  @main is one host line (the bias reshaped to [1, 1]), the region, and then 174 host lines in seven stretches.
  The region's grid has 98 points; point t stages rows 16384·t … 16384·t + 16383 of the edge features (block
  [16384, 128]) and of the result column (block [16384, 1]).  98 · 16384 = 1605632 exceeds the 1600000 rows, so the
  last block overhangs both arrays by 5632 rows: its fetch fills only the first 10752 rows of the staging buffer
  and leaves the others at words nothing names, and its write-back writes only those 10752 rows.  The weight row
  [1, 128] and the bias [1, 1] are whole-array blocks, fetched once.

  The body reads the three input buffers and overwrites the whole result buffer, so every input buffer is left as it
  was found.  What the result buffer holds is named here (the body's one payload of what the input buffers hold) but
  the frame run below does not use it: it forgets the result window, hands the body its buffer at any contents and
  takes it back at any contents.  That is enough for "the run ends and the arguments are unchanged": the arguments
  staged by the region are inputs, the others are not touched by the region, and none of the later host lines
  writes an argument.
-/
import proofs.«117032_j18150531792933_1_alg».proof.Proof.Gen.KernelIdeal.Launch
import proofs.«117032_j18150531792933_1_alg».proof.Proof.Gen.KernelIdeal.Skeleton
import proofs.«117032_j18150531792933_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The seven stretches of host lines after the region, in order. -/
abbrev tailOps : List (List (HloOp τ sig (Elt F))) :=
  [hostOps1, hostOps1_1, hostOps1_2, hostOps1_3, hostOps1_4, hostOps1_5, hostOps1_6]

/-- The core's buffer contents when the region is entered: after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the later lines, entered at the contents the first line leaves. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-! ### What the later lines write

Each later line writes one buffer of its own, and none of them is an argument of @main, the reshaped bias or the
region's result: the nine buffers listed here. -/

/-- The arguments, the reshaped bias and the region's result. -/
abbrev kept : List (Ref sig .tc) :=
  [main_arg0, main_arg1, main_arg2, main_arg3, main_arg4, main_arg5, main_arg6, main_v0, main_v1]

/-- Every other TensorCore buffer. -/
def written : Finset (Ref sig .tc) := Finset.univ.filter fun b => b ∉ kept

theorem mem_written {y : Ref sig .tc} (hy : y ∉ kept) : y ∈ written :=
  Finset.mem_filter.mpr ⟨Finset.mem_univ _, hy⟩

/-- A line whose one written buffer is not among the nine writes only into `written`. -/
theorem writes_sub {y : Ref sig .tc} {S : Finset (DevRef τ sig)} (hS : S = {Proc.devRef .tc y}) (hy : y ∉ kept) :
    ∀ b : Ref sig .tc, Proc.devRef .tc b ∈ S → b ∈ written := by
  intro b hb
  rw [hS, Finset.mem_singleton] at hb
  exact (Proc.devRef_injective _ hb) ▸ mem_written hy

abbrev WritesOk (op : HloOp τ sig (Elt F)) : Prop := ∀ b : Ref sig .tc, Proc.devRef .tc b ∈ op.writes → b ∈ written

theorem hostOps1_wr : (hostOps1 : List (HloOp τ sig (Elt F))).Forall WritesOk := by
  simp only [List.Forall]; repeat' apply And.intro
  all_goals exact writes_sub rfl (by decide)
theorem hostOps1_1_wr : (hostOps1_1 : List (HloOp τ sig (Elt F))).Forall WritesOk := by
  simp only [List.Forall]; repeat' apply And.intro
  all_goals exact writes_sub rfl (by decide)
theorem hostOps1_2_wr : (hostOps1_2 : List (HloOp τ sig (Elt F))).Forall WritesOk := by
  simp only [List.Forall]; repeat' apply And.intro
  all_goals exact writes_sub rfl (by decide)
theorem hostOps1_3_wr : (hostOps1_3 : List (HloOp τ sig (Elt F))).Forall WritesOk := by
  simp only [List.Forall]; repeat' apply And.intro
  all_goals exact writes_sub rfl (by decide)
theorem hostOps1_4_wr : (hostOps1_4 : List (HloOp τ sig (Elt F))).Forall WritesOk := by
  simp only [List.Forall]; repeat' apply And.intro
  all_goals exact writes_sub rfl (by decide)
theorem hostOps1_5_wr : (hostOps1_5 : List (HloOp τ sig (Elt F))).Forall WritesOk := by
  simp only [List.Forall]; repeat' apply And.intro
  all_goals exact writes_sub rfl (by decide)
theorem hostOps1_6_wr : (hostOps1_6 : List (HloOp τ sig (Elt F))).Forall WritesOk := by
  simp only [List.Forall]; repeat' apply And.intro
  all_goals exact writes_sub rfl (by decide)

/-- The later lines write only into `written`. -/
theorem sfx_T : ∀ ops ∈ (tailOps : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl | rfl | rfl | rfl | rfl | rfl | rfl
  · exact (List.forall_iff_forall_mem.mp hostOps1_wr) op hop
  · exact (List.forall_iff_forall_mem.mp hostOps1_1_wr) op hop
  · exact (List.forall_iff_forall_mem.mp hostOps1_2_wr) op hop
  · exact (List.forall_iff_forall_mem.mp hostOps1_3_wr) op hop
  · exact (List.forall_iff_forall_mem.mp hostOps1_4_wr) op hop
  · exact (List.forall_iff_forall_mem.mp hostOps1_5_wr) op hop
  · exact (List.forall_iff_forall_mem.mp hostOps1_6_wr) op hop

/-- The region's four arrays are among the nine. -/
theorem arr_kept : ∀ w : Fin 4, Pipeline.arrRef spec0 w ∈ kept := by decide

/-- So the later lines write no array of the region. -/
theorem sfx_keeps : ∀ ops ∈ (tailOps : List (List (HloOp τ sig (Elt F)))), ∀ op ∈ ops,
    ∀ w, Proc.devRef .tc (Pipeline.arrRef spec0 w) ∉ op.writes := fun ops hops op hop w hw =>
  (Finset.mem_filter.mp (sfx_T ops hops op hop _ hw)).2 (arr_kept w)

/-- The one line before the region writes the reshaped bias, no argument. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes,
      Finset.mem_singleton]
    exact StableHlo.devRef_ne_of_ne hb))

end Cert.KernelIdeal.Around

end
-- ==== Proof.KernelIdealRegion.lean ====
/-
  The region, point by point, for any float instance: what each staging buffer holds when the body runs and when
  it returns, the body's triple, and the run of the whole program to the end with the arguments unchanged.

  At point t the edge-feature buffer holds the array's rows 16384·t … on the rows the fetch filled and unnamed
  words below them (only at the last point, whose block overhangs the array); the weight row and the bias hold the
  whole arrays; the result buffer holds anything.  The body loads the three inputs whole, forms one value and stores
  it over the whole result buffer.
-/
import proofs.«117032_j18150531792933_1_alg».proof.Proof.KernelIdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it: for the edge features and the result
    the rows of the block that lie inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The edge-feature block filled out to the whole staging buffer with the zero word. -/
def xfull (c : Dev nD) (t : Fin cfg0.N) : Vec F S16384x128 .f32 :=
  win0_0.fill (grid0.coords t) (fun _ => Scalar.ofBits .f32 0#32) (iblk m c 0 t)

/-! ## The body's triple -/

abbrev r0 : Rect S16384x128 := Rect.unit (s := S16384x128) ![0, 0] S16384x128.size inb_S16384x128_S16384x128_0_0
abbrev r1 : Rect S1x128 := Rect.unit (s := S1x128) ![0, 0] S1x128.size inb_S1x128_S1x128_0_0
abbrev r2 : Rect S1x1 := Rect.unit (s := S1x1) ![0, 0] S1x1.size inb_S1x1_S1x1_0_0
abbrev r3 : Rect S16384x1 := Rect.unit (s := S16384x1) ![0, 0] S16384x1.size inb_S16384x1_S16384x1_0_0

/-- What the body leaves in the result buffer, from what the three input buffers hold: its one whole store. -/
def out3 (x0 : Vec F S16384x128 .f32) (x1 : Vec F S1x128 .f32) (x2 : Vec F S1x1 .f32) : Vec F S16384x1 .f32 :=
  View.canon [⟨r3, k0_pay1 (View.ld x0 r0) (View.ld x1 r1) (View.ld x2 r2)⟩]

theorem cover3 (p0 : Vec F S16384x1 .f32) (y : S16384x1.Idx) :
    ∃ pc ∈ ([⟨r3, p0⟩] : List (View.Piece (Elt F) S16384x1 .f32)), y ∈ pc.1.set :=
  View.cover_of_tiled [⟨r3, p0⟩] S16384x1.size (by rfl) y

set_option maxHeartbeats 1000000 in
/-- The body on whole staging memrefs: the inputs' at contents x0, x1, x2 and the result's at anything; it returns
    holding the inputs' as they were and the result's at `out3` of them. -/
theorem sound_kernel (c : Dev nD) (E : Set ℕ) (i : grid0.Coords)
    (arg1 : Memref sig .tc .vmem S16384x128 .f32) (harg1 : arg1.IsWhole) (arg2 : Memref sig .tc .vmem S1x128 .f32) (harg2 : arg2.IsWhole)
    (arg3 : Memref sig .tc .vmem S1x1 .f32) (harg3 : arg3.IsWhole) (arg4 : Memref sig .tc .vmem S16384x1 .f32) (harg4 : arg4.IsWhole)
    (x0 : Vec F S16384x128 .f32) (x1 : Vec F S1x128 .f32) (x2 : Vec F S1x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out3 x0 x1 x2)) -∗ K ⟨⟩))
      ⊢ wp frame (wpE (defs₀ (F := F)) Variants.none c none) E (cc0__edge_weight_kernel i arg1 harg1 arg2 harg2 arg3 harg3 arg4 harg4) K := by
  simp only [cc0__edge_weight_kernel_eq_skeleton]; unfold cc0__edge_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The proof data of the pipeline on core c: the arrays as the region finds them; after the body at point t the
    edge-feature buffer at its block filled out with zero words, the weight row and the bias at their blocks, the
    result buffer at the body's value of those; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => out3 (xfull m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xfull m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (xfull m c t) (iblk m c 1 t) (iblk m c 2 t) := by dsimp only [dats]

/-- The edge-feature buffer, fetched at every point: the block on the rows the fetch fills, d elsewhere. -/
theorem before0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq]; try rfl)

/-- The weight row's buffer holds the weight row at every point, fetched there or not. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- and the bias's buffer the bias. -/
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- The filled-out block cut back to the rows inside the array is the block. -/
theorem cut_xfull (c : Dev nD) (t : Fin cfg0.N) : win0_0.cut (grid0.coords t) (xfull m c t) = iblk m c 0 t :=
  win0_0.cut_fill _ _ _

/-! ## The body obligation with the result window forgotten -/

/-- The result window is forgotten: nothing below reads what the kernel leaves there. -/
def forgets : Fin 4 → Bool := fun w => w.val == 3

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, cut_xfull]
  iintro ⟨HΦ, Ho, ⟨%d0, H0⟩, ⟨%d1, H1⟩, ⟨%d2, H2⟩, ⟨%X3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists _; iexact H3

theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates; the region's input arrays end as the region found them and
    every unscoped buffer the later lines do not write as it was when the region was entered. -/
theorem run_main : θ_run defs (onTc (τ := τ) (main (F := F))) (s₀ m ρ)
    (Pipeline.RDat.FramePostR (cfgs 0) (fun c => (dats m 0 c).toRForget forgets) written (V m)) :=
  Pipeline.RDat.θ_run_frame_around_T cfgs (0 : Fin 1) launch0 defs₀ Variants.none (fun c => (dats m 0 c).toRForget forgets) written m ρ main
    (hbody := fun c => (body_obligation m c).toRForget) (hshare := fun c => ((dats m 0 c).toRForget forgets).share_full fun _ => rfl)
    (howed := fun _ _ => rfl) (V₀ := V0 m) (opss := tailOps) (hsub := sfx_sub) (hfresh := sfx_fresh) (hkeep := sfx_keeps) (hT := sfx_T)
    (hmain := hmain m Variants.none) (hA := A_eq m) (hΦ := fun _ _ => rfl)

/-- An argument that is no array of the region is untouched by the region and written by no later line. -/
theorem rest_arg (b : Ref sig .tc) (hs : b.isScoped = false) (ha : ∀ w, (spec0 w).arr.view.ref ≠ b) (hk : b ∈ kept) :
    b ∈ Pipeline.restRefs sig (cfgs 0).spec \ written :=
  Finset.mem_sdiff.mpr ⟨Pipeline.mem_restRefs_of b hs ha, fun h => (Finset.mem_filter.mp h).2 hk⟩

/-- The frame: the run ends and the seven arguments hold what they held. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Eq.mp (congrFun (((dats m 0 c).toRForget forgets).ArrAt_in 0 rfl _) _) ((h c).1 0)).trans ((A_eq m c 0).trans (V_of_ne m c main_arg0 (by decide))),
     ((h c).2 main_arg1 (rest_arg main_arg1 (by decide) (by decide) (by decide))).trans (V_of_ne m c main_arg1 (by decide)),
     ((h c).2 main_arg2 (rest_arg main_arg2 (by decide) (by decide) (by decide))).trans (V_of_ne m c main_arg2 (by decide)),
     (Eq.mp (congrFun (((dats m 0 c).toRForget forgets).ArrAt_in 1 rfl _) _) ((h c).1 1)).trans ((A_eq m c 1).trans (V_of_ne m c main_arg3 (by decide))),
     ((h c).2 main_arg4 (rest_arg main_arg4 (by decide) (by decide) (by decide))).trans (V_of_ne m c main_arg4 (by decide)),
     ((h c).2 main_arg5 (rest_arg main_arg5 (by decide) (by decide) (by decide))).trans (V_of_ne m c main_arg5 (by decide)),
     ((h c).2 main_arg6 (rest_arg main_arg6 (by decide) (by decide) (by decide))).trans (V_of_ne m c main_arg6 (by decide))⟩) (run_main m ρ)

end Cert.KernelIdeal.Around

end
-- ==== Proof.LibClippedBlocks.lean ====
/-
  Blocks that overhang their array. A window's block at block index `ix`, of `k` coordinates on an axis of an
  array of `d`, starts at `ix * k`; when it runs past the array's end only its first `d - ix * k` coordinates are
  moved by a transfer. So, axis by axis, a coordinate `j < k` of the block is moved exactly when the array
  coordinate `ix * k + j` it stands for exists (`lt_extent_iff`), a block index is moved exactly when it stands
  for an index of the array (`moved_iff_inside`), and a buffer filled from the array's block holds, at a moved
  index, the block's entry there (`fill_of_moved`).
-/
import Idealize.ShloMosaic.Lib.Pipeline

namespace Idealize.ShloMosaic.Pipeline

/-- A coordinate of the block is among those moved iff the array has the coordinate it stands for. -/
theorem Clip.lt_extent_iff {ix k d : Nat} {c : Clip} (h : Clip.Ok ix k d c) {j : Nat} (hj : j < k) :
    j < c.extent k ↔ ix * k + j < d := by
  cases c with
  | none =>
    have h' : (ix + 1) * k ≤ d := h
    rw [Nat.succ_mul] at h'
    show j < k ↔ _
    exact ⟨fun _ => by omega, fun _ => hj⟩
  | some n =>
    obtain ⟨_, _, e⟩ : 0 < n ∧ n < k ∧ ix * k + n = d := h
    show j < n ↔ _
    omega

namespace Window

variable {sig : RefSig} {G : Grid} (w : Window sig G)

/-- A block index is moved iff, on every axis, it stands for a coordinate of the array. -/
theorem moved_iff_inside (i : G.Coords) (j : w.block.Idx) :
    w.moved i j = true ↔ ∀ a, w.indexMap i a * w.size a + (j a).val < w.shape.size a := by
  rw [w.moved_iff i j]
  exact forall_congr' fun a => Clip.lt_extent_iff (w.hclip i a) (j a).isLt

/-- Inside the cut block, every coordinate stands for one of the array. -/
theorem inside_of_lt_xsize (i : G.Coords) (a : Fin w.shape.rank) {n : Nat} (h : n < w.xsize i a) :
    w.indexMap i a * w.size a + n < w.shape.size a :=
  (Clip.lt_extent_iff (w.hclip i a) (Nat.lt_of_lt_of_le h (w.xsize_le i a))).mp h

/-- and a coordinate of the block that stands for one of the array is inside the cut block. -/
theorem lt_xsize_of_inside (i : G.Coords) (a : Fin w.shape.rank) {n : Nat} (hn : n < w.size a)
    (h : w.indexMap i a * w.size a + n < w.shape.size a) : n < w.xsize i a :=
  (Clip.lt_extent_iff (w.hclip i a) hn).mpr h

/-- A filled buffer holds, at a moved index, the filling's entry there. -/
theorem fill_of_moved {α : Type} (i : G.Coords) (d : w.block.Idx → α) (g : (w.xblock i).Idx → α) {j : w.block.Idx}
    (h : w.moved i j = true) : w.fill i d g j = g fun a => ⟨(j a).val, (w.moved_iff i j).mp h a⟩ := by
  unfold fill; rw [dif_pos h]

end Window

end Idealize.ShloMosaic.Pipeline
-- ==== Proof.LibKeepdimsSum.lean ====
/-
  A row sum kept as a column, read at an index.

  `jnp.sum(x, axis=-1, keepdims=True)` of an `[a, b]` matrix is computed as a sum along the last axis into an `[a]`
  vector, which a shape cast then stands up as an `[a, 1]` column. Over the extended reals the sum from the zero
  accumulator is the plain finite sum of the row, so the column's entry at `(p, 0)` is Σ_k x[p, k].
-/
import Idealize.ShloMosaic.Lib.ValueLayout
import Idealize.ShloMosaic.PureOps.Ideal.Laws

namespace Cert.KeepdimsSum

open Idealize.ShloMosaic Idealize.ShloMosaic.ValueIdx

variable {α : Type}

/-- An `[a]` vector cast to an `[a, 1]` column reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A float sum along the last axis of an `[a, b]` matrix from the zero accumulator, read over the extended reals:
    entry `p` of the result is the finite sum of row `p`. -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The same sum kept as an `[a, 1]` column: its entry at `(p, u)` is the finite sum of row `p`. -/
theorem rowSum_column_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (shapeCast_a_a1_apply _ hc p u).trans (rowSum_apply src h hφ hacc p)

end Cert.KeepdimsSum
-- ==== Proof.LibPairStack.lean ====
/-
  Casts and broadcasts between a matrix, a stack of its rows, and the flattened stack, read at an index.

  A kernel that scores every pair `(i, j)` of rows builds, from an `[a, c]` and a `[b, c]` matrix, the `[a, b, c]` stack of
  their pairwise row combinations — each matrix gets a unit axis and is broadcast along it —, flattens the pair axes into
  one (`[a·b, c]`: the pair `(i, j)` becomes row `i·b + j`) for a matrix product, and unflattens the result.  Each lemma
  reads one of these re-layouts at an index written by coordinates: a cast keeps the row-major position, a broadcast
  reads the operand at `0` on its unit axes.  Also: a `[1, 1]` array broadcast to a matrix, and the index a reduction
  over the last axis of a rank-3 array sums over.
-/
import Idealize.ShloMosaic.Lib.ValueIdx
import Idealize.ShloMosaic.Lib.Pipeline.Value
import Idealize.ShloMosaic.PureOps.Reduce

namespace Idealize.ShloMosaic.PairStack

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` stack broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` stack broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- THE FLATTENING: an `[a, b, c]` stack cast to `[n, c]` reads, at row `r = i·b + j` and column `k`, the stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- THE UNFLATTENING: an `[n, c]` matrix cast to `[a, b, c]` reads, at `(i, j, k)`, the matrix at row `r = i·b + j`, column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The source index a reduction over the LAST axis of an `[a, b, c]` array sums over at result index `(i, j)`: `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

end Idealize.ShloMosaic.PairStack
-- ==== Proof.EdgeValue.lean ====
/-
  The region's result column over the extended reals.

  Over the extended reals the lane sum is the exact finite sum, so the body's value at row r of the result buffer is
  sigmoid(Σ_k x[r, k] · w[0, k] + b[0, 0]) of row r of the edge-feature buffer alone.  At the last grid point the
  rows of that buffer past the array's end hold unnamed words, but they only reach rows of the result buffer that
  the write-back does not move; on the rows it moves the body's value is a function of the array's rows.  So every
  point writes back its block of one array, `edgeColumn`, whose entry at edge e is the sigmoid of that edge's
  score, and the blocks cover the 1600000 rows: the result array ends holding `edgeColumn`.
-/
import proofs.«117032_j18150531792933_1_alg».proof.Proof.KernelIdealRegion
import proofs.«117032_j18150531792933_1_alg».proof.Proof.LibClippedBlocks
import proofs.«117032_j18150531792933_1_alg».proof.Proof.LibKeepdimsSum
import proofs.«117032_j18150531792933_1_alg».proof.Proof.LibPairStack
import Idealize.ShloMosaic.Lib.ValueLayout
import Idealize.ShloMosaic.Lib.IdealHost
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The body's value at a row -/

theorem hz : (![0, 0] : Fin 2 → Nat) = fun _ => 0 := funext fun a => by fin_cases a <;> rfl

/-- The body's one store covers the result buffer: what it leaves is its payload of the whole input buffers. -/
theorem out3_eq {F : FTy → Type} [FloatOps F] (x0 : Vec F S16384x128 .f32) (x1 : Vec F S1x128 .f32) (x2 : Vec F S1x1 .f32) :
    out3 x0 x1 x2 = k0_pay1 x0 x1 x2 := by
  unfold out3
  rw [View.canon_unit_zero hz]
  simp only [View.ld_unit_zero (S := S16384x128) hz, View.ld_unit_zero (S := S1x128) hz, View.ld_unit_zero (S := S1x1) hz]

/-- The sigmoid of a row's score: the row's product with the weight row, plus the bias. -/
def score (x w : Fin 128 → EReal) (b : EReal) : EReal := Ideal.logistic ((∑ k : Fin 128, x k * w k) + b)

/-- The sigmoid of a vector at an index is the sigmoid of the entry. -/
theorem logistic_apply {s : Shape} {φ : FTy} (a : FVec Ideal s φ) (i : s.Idx) : logistic a i = Ideal.logistic (a i) := rfl

/-- The body's value at row r is the score of row r of the edge-feature buffer. -/
theorem pay_apply (x0 : Vec Ideal S16384x128 .f32) (x1 : Vec Ideal S1x128 .f32) (x2 : Vec Ideal S1x1 .f32) (r : Fin 16384) (u : Fin 1) :
    k0_pay1 x0 x1 x2 (ix2 r u)
      = score (fun k => x0 (ix2 r k)) (fun k => x1 (ix2 (0 : Fin 1) k)) (x2 (ix2 (0 : Fin 1) (0 : Fin 1))) := by
  have h5 : shapeCast S16384x1 (multiReduction (F := Ideal) .add [1] S16384 (mulf x0 (broadcastTo S16384x128 x1 broadcasts_S1x128_S16384x128))
        0x00000000#32 reduces_S16384x128_S16384 (.inl rfl) rfl) shapeCasts_S16384_S16384x1 (ix2 r u)
      = ∑ k : Fin 128, x0 (ix2 r k) * x1 (ix2 (0 : Fin 1) k) := by
    refine (Cert.KeepdimsSum.rowSum_column_apply _ reduces_S16384x128_S16384 (.inl rfl) rfl shapeCasts_S16384_S16384x1 r u).trans ?_
    refine Finset.sum_congr rfl fun k _ => ?_
    exact congrArg (x0 (ix2 r k) * ·) (broadcastTo_1b_ab_apply x1 broadcasts_S1x128_S16384x128 r k)
  have h8 : broadcastTo S16384x1 (shapeCast S1x1 x2 shapeCasts_S1x1_S1x1) broadcasts_S1x1_S16384x1 (ix2 r u)
      = x2 (ix2 (0 : Fin 1) (0 : Fin 1)) := by
    exact (PairStack.broadcastTo_11_ab_apply _ broadcasts_S1x1_S16384x1 r u).trans
      (congrFun (shapeCast_self x2 shapeCasts_S1x1_S1x1) _)
  unfold k0_pay1 score
  dsimp only
  refine (logistic_apply _ _).trans (congrArg Ideal.logistic ?_)
  refine (addf_apply _ _ _).trans ?_
  rw [h5, h8]

/-! ## The blocks as rows of the arrays -/

variable (m : (ℓ : Loc nD τ sig) → Buf (Elt Ideal) ℓ) (ρ : Dev nD → PrngReg)

/-- The printed index maps over the grid: the edge features and the result move down one block per point, the
    weight row and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The edge-feature block at point t is rows 16384·t … of the array. -/
theorem iblk0_apply (c : Dev nD) (t : Fin cfg0.N) (y : (win0_0.xblock (grid0.coords t)).Idx) (e : S1600000x128.Idx)
    (h0 : (e 0).val = t.val * 16384 + (y 0).val) (h1 : (e 1).val = (y 1).val) :
    (iblk m c 0 t y : EReal) = (V m c main_arg0 : S1600000x128.Idx → EReal) e := by
  obtain ⟨i0, i1, -⟩ := idx_facts t
  unfold iblk
  rw [View.read_apply]
  show (V m c main_arg0 : S1600000x128.Idx → EReal) _ = (V m c main_arg0 : S1600000x128.Idx → EReal) _
  refine congrArg (V m c main_arg0 : S1600000x128.Idx → EReal) (funext fun a => Fin.ext ?_)
  match a with
  | ⟨0, _⟩ => show win0_0.index t 0 * 16384 + 1 * (y 0).val = (e 0).val; rw [i0, h0]; omega
  | ⟨1, _⟩ => show win0_0.index t 1 * 128 + 1 * (y 1).val = (e 1).val; rw [i1, h1]; omega

/-- The weight row's block is the weight row. -/
theorem iblk1_apply (c : Dev nD) (t : Fin cfg0.N) (y : S1x128.Idx) :
    (iblk m c 1 t y : EReal) = (V m c main_arg3 : S1x128.Idx → EReal) y := by
  obtain ⟨-, -, i0, i1, -⟩ := idx_facts t
  unfold iblk
  rw [View.read_apply]
  show (V m c main_arg3 : S1x128.Idx → EReal) _ = (V m c main_arg3 : S1x128.Idx → EReal) _
  refine congrArg (V m c main_arg3 : S1x128.Idx → EReal) (funext fun a => Fin.ext ?_)
  match a with
  | ⟨0, _⟩ => show win0_1.index t 0 * 1 + 1 * (y 0).val = (y 0).val; rw [i0]; omega
  | ⟨1, _⟩ => show win0_1.index t 1 * 128 + 1 * (y 1).val = (y 1).val; rw [i1]; omega

/-- The bias's block is the bias. -/
theorem iblk2_apply (c : Dev nD) (t : Fin cfg0.N) (y : S1x1.Idx) :
    (iblk m c 2 t y : EReal) = (V m c main_v0 : S1x1.Idx → EReal) y := by
  obtain ⟨-, -, -, -, i0, i1, -⟩ := idx_facts t
  unfold iblk
  rw [View.read_apply]
  show (V m c main_v0 : S1x1.Idx → EReal) _ = (V m c main_v0 : S1x1.Idx → EReal) _
  refine congrArg (V m c main_v0 : S1x1.Idx → EReal) (funext fun a => Fin.ext ?_)
  match a with
  | ⟨0, _⟩ => show win0_2.index t 0 * 1 + 1 * (y 0).val = (y 0).val; rw [i0]; omega
  | ⟨1, _⟩ => show win0_2.index t 1 * 1 + 1 * (y 1).val = (y 1).val; rw [i1]; omega

/-- A row of the result block that the write-back moves stands for a row of the array. -/
theorem row_inside (t : Fin cfg0.N) (y : (win0_3.xblock (grid0.coords t)).Idx) : t.val * 16384 + (y 0).val < 1600000 := by
  obtain ⟨-, -, -, -, -, -, i0, -⟩ := idx_facts t
  have h := win0_3.inside_of_lt_xsize (grid0.coords t) 0 (y 0).isLt
  have h' : win0_3.index t 0 * 16384 + (y 0).val < 1600000 := h
  rw [i0] at h'; exact h'

/-- The edge-feature buffer as the body finds it — its block on the rows the fetch filled, anything below — holds,
    at a row that stands for a row of the array, that row of the array. -/
theorem fill_row (c : Dev nD) (t : Fin cfg0.N) (d : S16384x128.Idx → EReal) (r : Fin 16384) (k : Fin 128)
    (hr : t.val * 16384 + r.val < 1600000) :
    win0_0.fill (grid0.coords t) d (iblk m c 0 t) (ix2 r k)
      = (V m c main_arg0 : S1600000x128.Idx → EReal) (ix2 ⟨t.val * 16384 + r.val, hr⟩ k) := by
  obtain ⟨i0, i1, -⟩ := idx_facts t
  have hm : win0_0.moved (grid0.coords t) (ix2 r k) = true := (win0_0.moved_iff_inside _ _).mpr fun a => by
    match a with
    | ⟨0, _⟩ => show win0_0.index t 0 * 16384 + r.val < 1600000; rw [i0]; exact hr
    | ⟨1, _⟩ => show win0_0.index t 1 * 128 + k.val < 128; rw [i1]; omega
  rw [win0_0.fill_of_moved _ _ _ hm]
  exact iblk0_apply m c t _ _ rfl rfl

/-! ## The result array -/

/-- The score of edge e from the arrays as the region finds them. -/
def edgeAt (c : Dev nD) (e : Fin 1600000) : EReal :=
  score (fun k => (V m c main_arg0 : S1600000x128.Idx → EReal) (ix2 e k))
    (fun k => (V m c main_arg3 : S1x128.Idx → EReal) (ix2 (0 : Fin 1) k)) ((V m c main_v0 : S1x1.Idx → EReal) (ix2 (0 : Fin 1) (0 : Fin 1)))

/-- The column of all edges' scores. -/
def edgeColumn (c : Dev nD) : S1600000x1.Idx → EReal := fun i => edgeAt m c ⟨(i 0).val, (i 0).isLt⟩

/-- The body's value, at a row of the result block the write-back moves, whatever the edge-feature buffer holds
    below the rows its fetch filled: the score of the edge the row stands for. -/
theorem pay_row (c : Dev nD) (t : Fin cfg0.N) (d : S16384x128.Idx → EReal) (y : (win0_3.xblock (grid0.coords t)).Idx) :
    k0_pay1 (F := Ideal) (win0_0.fill (grid0.coords t) d (iblk m c 0 t)) (iblk m c 1 t) (iblk m c 2 t) (win0_3.xinj (grid0.coords t) y)
      = edgeAt m c ⟨t.val * 16384 + (y 0).val, row_inside t y⟩ := by
  have hy0 : (y 0).val < 16384 := Nat.lt_of_lt_of_le (y 0).isLt (win0_3.xsize_le (grid0.coords t) 0)
  have hy1 : (y 1).val < 1 := Nat.lt_of_lt_of_le (y 1).isLt (win0_3.xsize_le (grid0.coords t) 1)
  have hx : win0_3.xinj (grid0.coords t) y = ix2 (⟨(y 0).val, hy0⟩ : Fin 16384) (⟨(y 1).val, hy1⟩ : Fin 1) :=
    funext fun a => Fin.ext (by match a with | ⟨0, _⟩ => rfl | ⟨1, _⟩ => rfl)
  rw [hx]
  refine (pay_apply _ _ _ _ _).trans ?_
  unfold edgeAt
  have e0 : (fun k : Fin 128 => win0_0.fill (grid0.coords t) d (iblk m c 0 t) (ix2 (⟨(y 0).val, hy0⟩ : Fin 16384) k))
      = fun k : Fin 128 => (V m c main_arg0 : S1600000x128.Idx → EReal) (ix2 ⟨t.val * 16384 + (y 0).val, row_inside t y⟩ k) :=
    funext fun k => fill_row m c t d ⟨(y 0).val, hy0⟩ k (row_inside t y)
  have e1 : (fun k : Fin 128 => (iblk m c 1 t (ix2 (0 : Fin 1) k) : EReal))
      = fun k : Fin 128 => (V m c main_arg3 : S1x128.Idx → EReal) (ix2 (0 : Fin 1) k) :=
    funext fun k => iblk1_apply m c t _
  have e2 : (iblk m c 2 t (ix2 (0 : Fin 1) (0 : Fin 1)) : EReal) = (V m c main_v0 : S1x1.Idx → EReal) (ix2 (0 : Fin 1) (0 : Fin 1)) :=
    iblk2_apply m c t _
  exact (congrArg (fun f => score f _ _) e0).trans ((congrArg (fun g => score _ g _) e1).trans (congrArg (fun b => score _ _ b) e2))

/-- What point t writes back is its block of the edge column. -/
theorem flushed3_eq (c : Dev nD) (t : Fin cfg0.N) :
    (dats m 0 c).flushed 3 t = ((cfg0.win 3).blk t).view.read (Elt Ideal) (edgeColumn m c) := by
  obtain ⟨-, -, -, -, -, -, i0, -⟩ := idx_facts t
  show (cfg0.win 3).cut (grid0.coords t) ((dats m 0 c).after 3 t) = _
  rw [after3, out3_eq]
  funext y
  rw [View.read_apply]
  show k0_pay1 (F := Ideal) (xfull m c t) (iblk m c 1 t) (iblk m c 2 t) (win0_3.xinj (grid0.coords t) y)
    = edgeColumn m c (((cfg0.win 3).blk t).view.emb y)
  unfold xfull
  rw [pay_row]
  unfold edgeColumn
  refine congrArg (edgeAt m c) (Fin.ext ?_)
  show t.val * 16384 + (y 0).val = win0_3.index t 0 * 16384 + 1 * (y 0).val
  rw [i0]; omega

/-- An entry of the result array is in point t's block iff each coordinate is in the block's range cut at the
    array's end. -/
theorem mem_blk3 (t : Fin cfg0.N) (i : S1600000x1.Idx) :
    i ∈ ((cfg0.win 3).blk t).view.set ↔ ∀ a : Fin 2, win0_3.index t a * S16384x1.size a ≤ (i a).val
      ∧ (i a).val < win0_3.index t a * S16384x1.size a + win0_3.xsize (grid0.coords t) a := by
  show i ∈ ((View.whole main_v1).slice (win0_3.rect t)).set ↔ _
  rw [View.set_slice_whole, Rect.mem_set_unit]
  exact Iff.rfl

/-- Edge e is in the block of point e / 16384. -/
theorem cover_rows (i : S1600000x1.Idx) :
    ∃ t : Fin cfg0.N, (cfg0.win 3).flush t = true ∧ i ∈ ((cfg0.win 3).blk t).view.set := by
  have hi0 : (i 0).val < 1600000 := (i 0).isLt
  have hi1 : (i 1).val < 1 := (i 1).isLt
  have hN : cfg0.N = 98 := N_0
  have hlt : (i 0).val / 16384 < cfg0.N := by rw [hN]; omega
  obtain ⟨-, -, -, -, -, -, i0, i1⟩ := idx_facts ⟨(i 0).val / 16384, hlt⟩
  refine ⟨⟨(i 0).val / 16384, hlt⟩, flush0_3 _, (mem_blk3 _ i).mpr fun a => ?_⟩
  match a with
  | ⟨0, _⟩ =>
    have hx : (i 0).val - (i 0).val / 16384 * 16384 < win0_3.xsize (grid0.coords ⟨(i 0).val / 16384, hlt⟩) 0 :=
      win0_3.lt_xsize_of_inside (grid0.coords ⟨(i 0).val / 16384, hlt⟩) 0 (n := (i 0).val - (i 0).val / 16384 * 16384)
        (by show _ < 16384; omega)
        (by show win0_3.index ⟨(i 0).val / 16384, hlt⟩ 0 * 16384 + _ < 1600000; rw [i0]; show (i 0).val / 16384 * 16384 + _ < 1600000; omega)
    show win0_3.index ⟨(i 0).val / 16384, hlt⟩ 0 * 16384 ≤ (i 0).val
      ∧ (i 0).val < win0_3.index ⟨(i 0).val / 16384, hlt⟩ 0 * 16384 + win0_3.xsize (grid0.coords ⟨(i 0).val / 16384, hlt⟩) 0
    rw [i0]; show (i 0).val / 16384 * 16384 ≤ (i 0).val ∧ (i 0).val < (i 0).val / 16384 * 16384 + _
    constructor <;> omega
  | ⟨1, _⟩ =>
    have hx : 0 < win0_3.xsize (grid0.coords ⟨(i 0).val / 16384, hlt⟩) 1 :=
      win0_3.lt_xsize_of_inside (grid0.coords ⟨(i 0).val / 16384, hlt⟩) 1 (n := 0) (by show 0 < 1; omega)
        (by show win0_3.index ⟨(i 0).val / 16384, hlt⟩ 1 * 1 + 0 < 1; rw [i1]; omega)
    show win0_3.index ⟨(i 0).val / 16384, hlt⟩ 1 * 1 ≤ (i 1).val
      ∧ (i 1).val < win0_3.index ⟨(i 0).val / 16384, hlt⟩ 1 * 1 + win0_3.xsize (grid0.coords ⟨(i 0).val / 16384, hlt⟩) 1
    rw [i1]; constructor <;> omega

/-- The result array ends holding the edge column. -/
theorem final3 (c : Dev nD) : (dats m 0 c).arrAt 3 cfg0.N = edgeColumn m c :=
  (dats m 0 c).arrAt_eq_of_cover 3 (edgeColumn m c) (fun t _ => flushed3_eq m c t) cover_rows

/-! ## The body obligation, every window named -/

local notation "𝕄" => MT nD τ sig Unit (Elt Ideal) ℕ (UR sig nD τ) ℕ

def bodyPreV (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPostV (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- On the rows the write-back moves, the body's value does not depend on what the edge-feature buffer holds below
    the rows its fetch filled. -/
theorem cut_out3 (c : Dev nD) (t : Fin cfg0.N) (d : S16384x128.Idx → EReal) :
    win0_3.cut (grid0.coords t) (out3 (F := Ideal) (win0_0.fill (grid0.coords t) d (iblk m c 0 t)) (iblk m c 1 t) (iblk m c 2 t))
      = win0_3.cut (grid0.coords t) (out3 (F := Ideal) (xfull m c t) (iblk m c 1 t) (iblk m c 2 t)) := by
  funext y
  show out3 (F := Ideal) _ _ _ (win0_3.xinj (grid0.coords t) y) = out3 (F := Ideal) _ _ _ (win0_3.xinj (grid0.coords t) y)
  rw [out3_eq, out3_eq]
  unfold xfull
  rw [pay_row, pay_row]

theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, cut_xfull]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexact H1
  isplitl [H2]; · iexact H2
  iexists (out3 (F := Ideal) (win0_0.fill (grid0.coords t) d0 (iblk m c 0 t)) (iblk m c 1 t) (iblk m c 2 t))
  rw [win0_3.fill_congr_cut (grid0.coords t) (cut_out3 m c t d0)]
  iexact H3

theorem body_obligationV (c : Dev nD) :
    BodyObligationLoose (dats (F := Ideal) m 0 c) (defs₀ (F := Ideal)) Variants.none () Set.univ := fun t => by
  rw [bigSep_W0, bigSep_W0]
  exact sound_bodyV m c t

end Cert.KernelIdeal.Around

end
-- ==== Proof.KernelTail.lean ====
/-
  The kernel program's host lines after its region, read as one function.

  The 174 lines after the region compute, from the region's result column and the mask, the edge index, alpha and
  the output bias, the program's two results: the column flattened to the edge-weight vector, and `propagate` of
  that vector (degree sums, normalisation, five propagation hops, tanh), spelt here over this program's own shapes.
  No line writes an argument, the reshaped bias or the region's result.
-/
import proofs.«117032_j18150531792933_1_alg».proof.Proof.KernelIdealAround
import Idealize.ShloMosaic.Lib.StableHlo.Run

noncomputable section

namespace Cert.KernelTail

open Cert.KernelIdeal Cert.KernelIdeal.Gen Cert.KernelIdeal.Around
open Idealize.ShloMosaic Idealize.ShloMosaic.TcCoe Idealize.SL.Sem Idealize.ShloMosaic.StableHlo

variable {F : FTy → Type} [FloatOps F]

set_option maxRecDepth 8192 in
/-- Everything the program computes after the edge weights, as a function of them and of the mask, the edge index,
    alpha and the output bias. -/
def propagate (ew : (⟨S1600000, .f32⟩ : BufTy).Contents (Elt F)) (a1 : (⟨S50000x1, .f32⟩ : BufTy).Contents (Elt F)) (a2 : (⟨S2x1600000, .i32⟩ : BufTy).Contents (Elt F))
    (a5 : (⟨S_, .f32⟩ : BufTy).Contents (Elt F)) (a6 : (⟨S1, .f32⟩ : BufTy).Contents (Elt F)) : (⟨S50000x1, .f32⟩ : BufTy).Contents (Elt F) :=
  Host.tanh (subf (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (maximumf a1 (broadcastInDim S50000x1 ![] bcast_S_S50000x1 (constant S_ .f32 0x00000000#32))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S50000x1 ![0, 1] bcast_S1x1_S50000x1_0_1 (broadcastInDim S1x1 ![1] bcast_S1_S1x1_1 (select (cmpf .une (subf a6 (broadcastInDim S1 ![] bcast_S_S1 (constant S_ .f32 0x00000000#32))) (subf a6 (broadcastInDim S1 ![] bcast_S_S1 (constant S_ .f32 0x00000000#32)))) (addf a6 (broadcastInDim S1 ![] bcast_S_S1 (constant S_ .f32 0x00000000#32))) (addf (maximumf a6 (broadcastInDim S1 ![] bcast_S_S1 (constant S_ .f32 0x00000000#32))) (Host.log1p (Host.exp (Host.negf (Host.absf (subf a6 (broadcastInDim S1 ![] bcast_S_S1 (constant S_ .f32 0x00000000#32))))))))))))

/-- A buffer among the arguments, the reshaped bias and the region's result is written by no later line. -/
theorem tail_kept (W : Valuation τ sig (Elt F)) (b : Ref sig .tc) (hb : b ∈ kept) :
    StableHlo.after (List.flatten tailOps) W (Proc.devRef .tc b) = W (Proc.devRef .tc b) :=
  StableHlo.after_of_forall_not_mem _ _ fun op hop hw => by
    obtain ⟨ops, hops, hop'⟩ := List.mem_flatten.mp hop
    exact (Finset.mem_filter.mp (sfx_T ops hops op hop' b hw)).2 hb

set_option maxRecDepth 8192 in
set_option maxHeartbeats 40000000 in
/-- The flattened result column, after all the later lines. -/
theorem tail_v2 (W : Valuation τ sig (Elt F)) :
    StableHlo.after (List.flatten tailOps) W (Proc.devRef .tc main_v2)
      = shapeCast _ (W (Proc.devRef .tc main_v1) : (⟨S1600000x1, .f32⟩ : BufTy).Contents (Elt F)) shapeCasts_S1600000x1_S1600000 := by
  simp only [tailOps, hostOps1, hostOps1_1, hostOps1_2, hostOps1_3, hostOps1_4, hostOps1_5, hostOps1_6,
    List.flatten_cons, List.flatten_nil, List.append_nil, List.cons_append, List.nil_append]
  after_results_simp <;> rfl

set_option maxRecDepth 8192 in
set_option maxHeartbeats 80000000 in
/-- The last buffer, after all the later lines: `propagate` of the flattened result column. -/
theorem tail_v130 (W : Valuation τ sig (Elt F)) :
    StableHlo.after (List.flatten tailOps) W (Proc.devRef .tc main_v130)
      = propagate (shapeCast _ (W (Proc.devRef .tc main_v1) : (⟨S1600000x1, .f32⟩ : BufTy).Contents (Elt F)) shapeCasts_S1600000x1_S1600000)
          (W (Proc.devRef .tc main_arg1)) (W (Proc.devRef .tc main_arg2)) (W (Proc.devRef .tc main_arg5)) (W (Proc.devRef .tc main_arg6)) := by
  simp only [tailOps, hostOps1, hostOps1_1, hostOps1_2, hostOps1_3, hostOps1_4, hostOps1_5, hostOps1_6,
    List.flatten_cons, List.flatten_nil, List.append_nil, List.cons_append, List.nil_append]
  after_results_simp <;> rfl <;> (unfold propagate; rfl)

end Cert.KernelTail

end
-- ==== Proof.KernelValue.lean ====
/-
  The kernel program's run over the extended reals with both results named.

  The region leaves the result array at the edge column; the arguments are untouched by the region; the later lines
  read the column and four arguments and write neither.  So the program ends with its second result the column
  flattened to the edge-weight vector, its first result `propagate` of that vector and of the mask, the edge index,
  alpha and the output bias, and every argument as it was.
-/
import proofs.«117032_j18150531792933_1_alg».proof.Proof.EdgeValue
import proofs.«117032_j18150531792933_1_alg».proof.Proof.KernelTail

set_option maxRecDepth 16384

noncomputable section

namespace Cert.KernelIdeal.Around

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

set_option backward.isDefEq.respectTransparency.types false in
/-- Every weakly fair execution of @main terminates with every array of the region at what the proof data compute
    and every other unscoped buffer as the later lines leave it. -/
theorem run_value : θ_run defs (onTc (τ := τ) (main (F := Ideal))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => body_obligationV m c) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The core's buffers when the region is left: its arrays as the proof data compute them, the rest as the region
    found them. -/
def exitV (c : Dev nD) : Valuation τ sig (Elt Ideal) :=
  Pipeline.withArrays spec0 c (V0 m c) fun w => (dats m 0 c).arrAt w cfg0.N

theorem afterTail_eq (c : Dev nD) (b : Ref sig .tc) :
    Pipeline.afterTail₀ cfgs (dats m) 0 (V0 m) tailOps c b = StableHlo.after (List.flatten tailOps) (exitV m c) (Proc.devRef .tc b) := rfl

/-- The result array is left at the edge column. -/
theorem exitV_v1 (c : Dev nD) : (exitV m c (Proc.devRef .tc main_v1) : S1600000x1.Idx → EReal) = edgeColumn m c :=
  (Pipeline.withArrays_arr spec0 launch0.win.arr_inj c _ _ 3).trans (final3 m c)

/-- A buffer that is no array of the region and not the reshaped bias is left as launched. -/
theorem exitV_arg (c : Dev nD) (b : Ref sig .tc) (hb : ∀ w, Pipeline.arrRef spec0 w ≠ b) (hv : b ≠ main_v0) :
    exitV m c (Proc.devRef .tc b) = m ((c : Thread nD τ).loc b) :=
  (Pipeline.withArrays_of_ne spec0 c (V0 m c) _ b hb).trans (V_of_ne m c b hv)

/-- The program's first result. -/
def result0 (c : Dev nD) : S50000x1.Idx → EReal :=
  Cert.KernelTail.propagate (F := Ideal) (shapeCast _ (edgeColumn m c) shapeCasts_S1600000x1_S1600000)
    (m ((c.tc : Thread nD τ).loc main_arg1)) (m ((c.tc : Thread nD τ).loc main_arg2)) (m ((c.tc : Thread nD τ).loc main_arg5))
    (m ((c.tc : Thread nD τ).loc main_arg6))

/-- The program's second result: the edge column as a vector. -/
def result1 (c : Dev nD) : S1600000.Idx → EReal := shapeCast _ (edgeColumn m c) shapeCasts_S1600000x1_S1600000

theorem after_v130 (c : Dev nD) :
    StableHlo.after (List.flatten tailOps) (exitV m c) (Proc.devRef .tc main_v130) = result0 m c := by
  refine (Cert.KernelTail.tail_v130 (exitV m c)).trans ?_
  unfold result0
  rw [exitV_v1 m c, exitV_arg m c main_arg1 (by decide) (by decide), exitV_arg m c main_arg2 (by decide) (by decide),
    exitV_arg m c main_arg5 (by decide) (by decide), exitV_arg m c main_arg6 (by decide) (by decide)]

theorem after_v2 (c : Dev nD) :
    StableHlo.after (List.flatten tailOps) (exitV m c) (Proc.devRef .tc main_v2) = result1 m c := by
  refine (Cert.KernelTail.tail_v2 (exitV m c)).trans ?_
  unfold result1
  rw [exitV_v1 m c]

/-- An argument the region does not stage ends as launched. -/
theorem after_arg (c : Dev nD) (b : Ref sig .tc) (hk : b ∈ kept) (hb : ∀ w, Pipeline.arrRef spec0 w ≠ b) (hv : b ≠ main_v0) :
    StableHlo.after (List.flatten tailOps) (exitV m c) (Proc.devRef .tc b) = m ((c : Thread nD τ).loc b) :=
  (Cert.KernelTail.tail_kept (exitV m c) b hk).trans (exitV_arg m c b hb hv)

/-- The run, read: both results and the seven arguments. -/
theorem run_results : θ_run defs (onTc (τ := τ) (main (F := Ideal))) ⟨m, fun _ => 0, ρ⟩ (fun r => ∀ c : Dev nD,
      r.2.mem ((c.tc : Thread nD τ).loc main_v130) = result0 m c
      ∧ r.2.mem ((c.tc : Thread nD τ).loc main_v2) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v130 (Pipeline.mem_restRefs_of main_v130 (by decide) (by decide))).trans ((afterTail_eq m c main_v130).trans (after_v130 m c)),
     ((h c).2 main_v2 (Pipeline.mem_restRefs_of main_v2 (by decide) (by decide))).trans ((afterTail_eq m c main_v2).trans (after_v2 m c)),
     ((h c).1 0).trans (((dats m 0 c).arrAt_in 0 rfl _).trans ((A_eq m c 0).trans (V_of_ne m c main_arg0 (by decide)))),
     ((h c).2 main_arg1 (Pipeline.mem_restRefs_of main_arg1 (by decide) (by decide))).trans ((afterTail_eq m c main_arg1).trans (after_arg m c main_arg1 (by decide) (by decide) (by decide))),
     ((h c).2 main_arg2 (Pipeline.mem_restRefs_of main_arg2 (by decide) (by decide))).trans ((afterTail_eq m c main_arg2).trans (after_arg m c main_arg2 (by decide) (by decide) (by decide))),
     ((h c).1 1).trans (((dats m 0 c).arrAt_in 1 rfl _).trans ((A_eq m c 1).trans (V_of_ne m c main_arg3 (by decide)))),
     ((h c).2 main_arg4 (Pipeline.mem_restRefs_of main_arg4 (by decide) (by decide))).trans ((afterTail_eq m c main_arg4).trans (after_arg m c main_arg4 (by decide) (by decide) (by decide))),
     ((h c).2 main_arg5 (Pipeline.mem_restRefs_of main_arg5 (by decide) (by decide))).trans ((afterTail_eq m c main_arg5).trans (after_arg m c main_arg5 (by decide) (by decide) (by decide))),
     ((h c).2 main_arg6 (Pipeline.mem_restRefs_of main_arg6 (by decide) (by decide))).trans ((afterTail_eq m c main_arg6).trans (after_arg m c main_arg6 (by decide) (by decide) (by decide)))⟩)
    (run_value m ρ)

end Cert.KernelIdeal.Around

end
-- ==== Proof.RefTail.lean ====
/-
  The reference's two results as functions of its arguments.

  The edge weights are sigmoid(edge_attr · Wᵀ + b) written out as 1 / (1 + exp(−z)) and flattened to a vector
  (`edgeWeights`).  Everything after them — the degree sums, the normalisation, the five propagation hops, the final
  tanh — reads the edge features, the weight row and the bias only through that vector: `propagate` is that
  remainder as one function of the edge-weight vector and of the mask, the edge index, alpha and the output bias.
  The reference's first result is `propagate` of its edge weights, its second the edge weights themselves.
-/
import proofs.«117032_j18150531792933_1_alg».proof.Proof.Gen.ReferenceIdeal.Run

noncomputable section

namespace Cert.RefTail

open Cert.ReferenceIdeal Cert.ReferenceIdeal.Gen Idealize.ShloMosaic Idealize.ShloMosaic.TcCoe Idealize.SL.Sem Idealize.ShloMosaic.StableHlo

variable {F : FTy → Type} [FloatOps F]

/-- sigmoid(edge_attr · Wᵀ + b) as the reference spells it, flattened to [1600000]. -/
def edgeWeights (a0 : (⟨S1600000x128, .f32⟩ : BufTy).Contents (Elt F)) (a3 : (⟨S1x128, .f32⟩ : BufTy).Contents (Elt F)) (a4 : (⟨S1, .f32⟩ : BufTy).Contents (Elt F)) : (⟨S1600000, .f32⟩ : BufTy).Contents (Elt F) :=
  shapeCast _ (Host.divf (broadcastInDim S1600000x1 ![] bcast_S_S1600000x1 (constant S_ .f32 0x3F800000#32)) (addf (broadcastInDim S1600000x1 ![] bcast_S_S1600000x1 (constant S_ .f32 0x3F800000#32)) (Host.exp (Host.negf (addf (Host.dotGeneral dot_S1600000x128_S128x1_S1600000x1_1_0_0_1_n_n none a0 (transpose S128x1 [1, 0] a3 transposes_S1x128_S128x1_1_0)) (broadcastInDim S1600000x1 ![0, 1] bcast_S1x1_S1600000x1_0_1 (broadcastInDim S1x1 ![1] bcast_S1_S1x1_1 a4))))))) shapeCasts_S1600000x1_S1600000

set_option maxRecDepth 8192 in
/-- Everything the reference computes after the edge weights, as a function of them and of the mask, the edge
    index, alpha and the output bias. -/
def propagate (ew : (⟨S1600000, .f32⟩ : BufTy).Contents (Elt F)) (a1 : (⟨S50000x1, .f32⟩ : BufTy).Contents (Elt F)) (a2 : (⟨S2x1600000, .i32⟩ : BufTy).Contents (Elt F))
    (a5 : (⟨S_, .f32⟩ : BufTy).Contents (Elt F)) (a6 : (⟨S1, .f32⟩ : BufTy).Contents (Elt F)) : (⟨S50000x1, .f32⟩ : BufTy).Contents (Elt F) :=
  Host.tanh (subf (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (addf (mulf (broadcastInDim S50000x1 ![] bcast_S_S50000x1 (subf (constant S_ .f32 0x3F800000#32) a5)) (Host.scatterAdd scatter_S50000x1_S1650000x1_S1650000x1_1_0_0_1 (broadcastInDim S50000x1 ![] bcast_S_S50000x1 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (mulf (broadcastInDim S1650000x1 ![0] bcast_S1650000_S1650000x1_0 (mulf (mulf (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0)))) (concatenate S1650000 0 [⟨S1600000, ew⟩, ⟨S50000, (broadcastInDim S50000 ![] bcast_S_S50000 (constant S_ .f32 0x3F800000#32))⟩] concatenates_S1600000_S50000_S1650000_d0)) (Host.gather gather_S50000_S1650000x1_S1650000_n_0_n_n_0_1_1 (select (cmpf .ogt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0)) (broadcastInDim S50000 ![] bcast_S_S50000 (constant S_ .f32 0x00000000#32))) (Host.rsqrt (Host.scatterAdd scatter_S50000_S1650000x1_S1650000_n_0_0_1 (broadcastInDim S50000 ![] bcast_S_S50000 (constant S_ .f32 0x00000000#32)) (broadcastInDim S1650000x1 ![0] bcast_S1650000_S1650000x1_0 (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)) (concatenate S1650000 0 [⟨S1600000, ew⟩, ⟨S50000, (broadcastInDim S50000 ![] bcast_S_S50000 (constant S_ .f32 0x3F800000#32))⟩] concatenates_S1600000_S50000_S1650000_d0))) (broadcastInDim S50000 ![] bcast_S_S50000 (id (constant S_ .f32 0x00000000#32)))) (broadcastInDim S1650000x1 ![0] bcast_S1650000_S1650000x1_0 (select (cmpi .slt (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] a2 slices_S2x1600000_S1x1600000_1_0) shapeCasts_S1x1600000_S1600000)⟩, ⟨S50000, (iotaInDim S50000 32 0)⟩] concatenates_S1600000_S50000_S1650000_d0)))))) (Host.gather gather_S50000x1_S1650000x1_S1650000x1_1_0_n_n_0_1_11 (maximumf a1 (broadcastInDim S50000x1 ![] bcast_S_S50000x1 (constant S_ .f32 0x00000000#32))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S1650000x1 ![0] bcast_S1650000_S1650000x1_0 (select (cmpi .slt (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] a2 slices_S2x1600000_S1x1600000_0_0) shapeCasts_S1x1600000_S1600000)⟩, ⟨S50000, (iotaInDim S50000 32 0)⟩] concatenates_S1600000_S50000_S1650000_d0))))))) (mulf (broadcastInDim S50000x1 ![] bcast_S_S50000x1 a5) (maximumf a1 (broadcastInDim S50000x1 ![] bcast_S_S50000x1 (constant S_ .f32 0x00000000#32))))) (broadcastInDim S50000x1 ![0, 1] bcast_S1x1_S50000x1_0_1 (broadcastInDim S1x1 ![1] bcast_S1_S1x1_1 (select (cmpf .une (subf a6 (broadcastInDim S1 ![] bcast_S_S1 (constant S_ .f32 0x00000000#32))) (subf a6 (broadcastInDim S1 ![] bcast_S_S1 (constant S_ .f32 0x00000000#32)))) (addf a6 (broadcastInDim S1 ![] bcast_S_S1 (constant S_ .f32 0x00000000#32))) (addf (maximumf a6 (broadcastInDim S1 ![] bcast_S_S1 (constant S_ .f32 0x00000000#32))) (Host.log1p (Host.exp (Host.negf (Host.absf (subf a6 (broadcastInDim S1 ![] bcast_S_S1 (constant S_ .f32 0x00000000#32))))))))))))

set_option maxRecDepth 8192 in
/-- The reference's first result is `propagate` of its edge weights. -/
theorem res_out0_eq (m : (ℓ : Loc nD τ sig) → Buf (Elt F) ℓ) (c : Dev nD) :
    Cert.ReferenceIdeal.Value.res_out0 m c
      = propagate (edgeWeights (m ((c.tc : Thread nD τ).loc main_arg0)) (m ((c.tc : Thread nD τ).loc main_arg3)) (m ((c.tc : Thread nD τ).loc main_arg4)))
          (m ((c.tc : Thread nD τ).loc main_arg1)) (m ((c.tc : Thread nD τ).loc main_arg2)) (m ((c.tc : Thread nD τ).loc main_arg5))
          (m ((c.tc : Thread nD τ).loc main_arg6)) := rfl

end Cert.RefTail

end
-- ==== Proof.TailSame.lean ====
/-
  The two programs apply the same function to their edge weights: `propagate` spelt over the kernel program's shapes
  and over the reference's is one function (the shapes and the gather / scatter dimension records are the same
  literals in both).
-/
import proofs.«117032_j18150531792933_1_alg».proof.Proof.KernelTail
import proofs.«117032_j18150531792933_1_alg».proof.Proof.RefTail

noncomputable section

namespace Cert.TailSame

open Idealize.ShloMosaic

variable {F : FTy → Type} [FloatOps F]

set_option maxRecDepth 8192 in
set_option maxHeartbeats 4000000 in
theorem propagate_same (ew : (⟨Cert.KernelIdeal.S1600000, .f32⟩ : BufTy).Contents (Elt F))
    (a1 : (⟨Cert.KernelIdeal.S50000x1, .f32⟩ : BufTy).Contents (Elt F)) (a2 : (⟨Cert.KernelIdeal.S2x1600000, .i32⟩ : BufTy).Contents (Elt F))
    (a5 : (⟨Cert.KernelIdeal.S_, .f32⟩ : BufTy).Contents (Elt F)) (a6 : (⟨Cert.KernelIdeal.S1, .f32⟩ : BufTy).Contents (Elt F)) :
    Cert.KernelTail.propagate ew a1 a2 a5 a6 = Cert.RefTail.propagate ew a1 a2 a5 a6 := rfl

end Cert.TailSame

end
-- ==== Proof.EdgeBridge.lean ====
/-
  The two programs' edge weights are one vector.

  Index by index: the kernel program's second result at edge e is sigmoid(Σ_k edge_attr[e, k] · W[0, k] + b[0]) with
  the sum a lane sum and the sigmoid one operation; the reference's is 1 / (1 + exp(−(Σ_k edge_attr[e, k] · Wᵀ[k, 0] +
  b[0]))) with the sum a matrix product.  Over the extended reals both sums are the same finite sum, term by term,
  and the sigmoid is by definition 1 / (1 + exp(−z)).  The first results are `propagate` of the two.
-/
import proofs.«117032_j18150531792933_1_alg».proof.Proof.KernelValue
import proofs.«117032_j18150531792933_1_alg».proof.Proof.TailSame
import proofs.«117032_j18150531792933_1_alg».proof.Proof.Gen.ReferenceIdeal.Read

set_option maxRecDepth 16384

noncomputable section

namespace Cert.KernelIdeal.Around

open Cert.KernelIdeal Cert.KernelIdeal.Gen
open Idealize.ShloMosaic Idealize.ShloMosaic.TcCoe Idealize.ShloMosaic.ValueIdx Idealize.ShloMosaic.StableHlo
open Idealize.SL Idealize.SL.Sem

/-- The reference's edge weight of edge e: the score of row e. -/
theorem ref_edge (a0 : (⟨Cert.ReferenceIdeal.S1600000x128, .f32⟩ : BufTy).Contents (Elt Ideal))
    (a3 : (⟨Cert.ReferenceIdeal.S1x128, .f32⟩ : BufTy).Contents (Elt Ideal)) (a4 : (⟨Cert.ReferenceIdeal.S1, .f32⟩ : BufTy).Contents (Elt Ideal))
    (e : Fin 1600000) :
    Cert.RefTail.edgeWeights (F := Ideal) a0 a3 a4 (ix1 e)
      = score (fun k => a0 (ix2 e k)) (fun k => a3 (ix2 (0 : Fin 1) k)) (a4 (ix1 (0 : Fin 1))) := by
  have h11 : Cert.RefTail.edgeWeights (F := Ideal) a0 a3 a4 = Cert.ReferenceIdeal.Read.val_main_v11 (F := Ideal) a0 a3 a4 := rfl
  have el : ∀ k : Fin 128, Cert.ReferenceIdeal.Read.lidx_main_v1 (Cert.ReferenceIdeal.Read.idx_main_v11 (ix1 e)) k = ix2 e k :=
    fun k => funext fun a => Fin.ext (by
      match a with
      | ⟨0, _⟩ => show e.val / 1 = e.val; omega
      | ⟨1, _⟩ => rfl)
  have er : ∀ k : Fin 128, Cert.ReferenceIdeal.Read.idx_main_v0
      (Cert.ReferenceIdeal.Read.ridx_main_v1 (Cert.ReferenceIdeal.Read.idx_main_v11 (ix1 e)) k) = ix2 (0 : Fin 1) k :=
    fun k => funext fun a => Fin.ext (by
      match a with
      | ⟨0, _⟩ => rfl
      | ⟨1, _⟩ => rfl)
  have eb : Cert.ReferenceIdeal.Read.idx_main_v2 (Cert.ReferenceIdeal.Read.idx_main_v3 (Cert.ReferenceIdeal.Read.idx_main_v11 (ix1 e)))
      = ix1 (0 : Fin 1) :=
    funext fun a => Fin.ext (by match a with | ⟨0, _⟩ => rfl)
  rw [h11, Cert.ReferenceIdeal.Read.val_main_v11_apply, Cert.ReferenceIdeal.Read.val_main_v10_apply,
    Cert.ReferenceIdeal.Read.val_main_v9_apply, Cert.ReferenceIdeal.Read.val_main_cst_0_apply,
    Cert.ReferenceIdeal.Read.val_main_v8_apply, Cert.ReferenceIdeal.Read.val_main_v7_apply, Cert.ReferenceIdeal.Read.val_main_cst_apply,
    Cert.ReferenceIdeal.Read.val_main_v6_apply, Cert.ReferenceIdeal.Read.val_main_v5_apply, Cert.ReferenceIdeal.Read.val_main_v4_apply,
    Cert.ReferenceIdeal.Read.val_main_v1_apply, Cert.ReferenceIdeal.Read.val_main_v3_apply, Cert.ReferenceIdeal.Read.val_main_v2_apply]
  simp only [Cert.ReferenceIdeal.Read.val_main_v0_apply, el, er, eb]
  rw [show (FloatOps.ofBits (F := Ideal) .f32 0x3F800000#32) = (1 : EReal) from Ideal.ofBits_one_f32]
  rfl

variable (m : (ℓ : Loc nD τ sig) → Buf (Elt Ideal) ℓ) (ρ : Dev nD → PrngReg)

/-- The region finds the bias as the one host line before it leaves it: the bias vector stood up as [1, 1]. -/
theorem V_bias (c : Dev nD) :
    (V m c main_v0 : S1x1.Idx → EReal) = shapeCast S1x1 (m ((c : Thread nD τ).loc main_arg4)) shapeCasts_S1_S1x1 := by
  show StableHlo.after (List.flatten [hostOps0]) (fun b => m (c, b)) (Proc.devRef .tc main_v0) = _
  simp only [hostOps0, List.flatten_cons, List.flatten_nil, List.append_nil]
  after_results; rfl

/-- The score of edge e from the arguments as launched. -/
theorem edgeAt_eq (c : Dev nD) (e : Fin 1600000) :
    edgeAt m c e = score (fun k => (m ((c : Thread nD τ).loc main_arg0) : S1600000x128.Idx → EReal) (ix2 e k))
      (fun k => (m ((c : Thread nD τ).loc main_arg3) : S1x128.Idx → EReal) (ix2 (0 : Fin 1) k))
      ((m ((c : Thread nD τ).loc main_arg4) : S1.Idx → EReal) (ix1 (0 : Fin 1))) := by
  unfold edgeAt
  rw [V_of_ne m c main_arg0 (by decide), V_of_ne m c main_arg3 (by decide), V_bias m c]
  exact congrArg (score _ _) (Cert.KeepdimsSum.shapeCast_a_a1_apply _ shapeCasts_S1_S1x1 (0 : Fin 1) (0 : Fin 1))

/-- The second result at edge e. -/
theorem result1_apply (c : Dev nD) (e : Fin 1600000) : result1 m c (ix1 e) = edgeAt m c e := by
  unfold result1
  refine (shapeCast_apply (edgeColumn m c) shapeCasts_S1600000x1_S1600000 (ix1 e) (ix2 e (0 : Fin 1)) ?_).trans rfl
  rw [Shape.rowMajor_val_two, Shape.rowMajor_val_one]
  show e.val * 1 + 0 = e.val
  omega

/-- The kernel program's second result is the reference's edge weights of the same arguments. -/
theorem edge_bridge (c : Dev nD) :
    result1 m c = Cert.RefTail.edgeWeights (F := Ideal) (m ((c.tc : Thread nD τ).loc main_arg0)) (m ((c.tc : Thread nD τ).loc main_arg3))
      (m ((c.tc : Thread nD τ).loc main_arg4)) := by
  funext i
  obtain ⟨e, rfl⟩ : ∃ e : Fin 1600000, i = ix1 e := ⟨i 0, eq_ix1 i⟩
  exact (result1_apply m c e).trans ((edgeAt_eq m c e).trans (ref_edge _ _ _ e).symm)

/-- and its first result the reference's `propagate` of them. -/
theorem result0_eq (c : Dev nD) :
    result0 m c = Cert.RefTail.propagate (F := Ideal)
      (Cert.RefTail.edgeWeights (F := Ideal) (m ((c.tc : Thread nD τ).loc main_arg0)) (m ((c.tc : Thread nD τ).loc main_arg3))
        (m ((c.tc : Thread nD τ).loc main_arg4)))
      (m ((c.tc : Thread nD τ).loc main_arg1)) (m ((c.tc : Thread nD τ).loc main_arg2)) (m ((c.tc : Thread nD τ).loc main_arg5))
      (m ((c.tc : Thread nD τ).loc main_arg6)) := by
  have h : result0 m c = Cert.KernelTail.propagate (F := Ideal) (result1 m c)
      (m ((c.tc : Thread nD τ).loc main_arg1)) (m ((c.tc : Thread nD τ).loc main_arg2)) (m ((c.tc : Thread nD τ).loc main_arg5))
      (m ((c.tc : Thread nD τ).loc main_arg6)) := rfl
  rw [h, edge_bridge m c]
  exact Cert.TailSame.propagate_same _ _ _ _ _

end Cert.KernelIdeal.Around

end
-- ==== Proof.lean ====
/-
  Edge weights by a row-blocked kernel against a matrix product, followed in both programs by the same graph
  propagation.

  Both programs compute, for 1600000 edges with 128 features each, the edge weights
  sigmoid(edge_attr · Wᵀ + b), and then — identically — self-loops, the weighted degree of every node, the
  symmetric normalisation deg^(−1/2) · w · deg^(−1/2), five hops x ← (1 − α) · scatter(norm · x[row]) + α · relu(mask),
  and tanh(x − softplus(bias)).  They differ only in the edge weights: the kernel multiplies each block of 16384
  rows by the weight row lane by lane, sums the lanes, adds the bias and applies the sigmoid as one operation; the
  reference takes one matrix product with Wᵀ, adds the bias and spells the sigmoid as 1 / (1 + exp(−z)).

  Over the extended reals a lane sum and a contraction are the same finite sum Σ_k edge_attr[e, k] · W[0, k], and the
  sigmoid is by definition 1 / (1 + exp(−z)); so the two edge-weight vectors agree entry by entry, with no use of
  finiteness, and the rest is one function (`propagate`) of that vector and of the other arguments.

  The last block of the kernel's grid overhangs the arrays (98 · 16384 > 1600000): its staging rows past the end
  hold unnamed words, which reach only rows of the result buffer that are never written back.  For the frames this
  is immaterial (the result window is forgotten); for the values the body's row r depends on row r alone.
  The idealized kernel is the kernel's own text (no rewrite), so `preserves` is trivial.
-/
import proofs.«117032_j18150531792933_1_alg».proof.Defs
import proofs.«117032_j18150531792933_1_alg».proof.Proof.Gen.Kernel
import proofs.«117032_j18150531792933_1_alg».proof.Proof.Gen.KernelIdeal
import proofs.«117032_j18150531792933_1_alg».proof.Proof.Gen.ReferenceIdeal
import proofs.«117032_j18150531792933_1_alg».proof.Proof.Gen.Pre_finite_inputs
import proofs.«117032_j18150531792933_1_alg».proof.Proof.Gen.ReferenceIdeal.Run
import proofs.«117032_j18150531792933_1_alg».proof.Proof.KernelRegion
import proofs.«117032_j18150531792933_1_alg».proof.Proof.KernelIdealRegion
import proofs.«117032_j18150531792933_1_alg».proof.Proof.EdgeBridge
import Idealize.ShloMosaic.Adequacy
import Idealize.ShloMosaic.Init

noncomputable section

namespace Cert.Proof

open Idealize.ShloMosaic Idealize.SL.Sem

/-- The kernel program runs to the end and leaves its arguments as they were. -/
theorem frame_k : Cert.frame_Kernel := fun m ρ _ => Cert.Kernel.Around.frame_args m ρ

/-- So does its idealization. -/
theorem frame_ki : Cert.frame_KernelIdeal := fun m ρ _ => Cert.KernelIdeal.Around.frame_args m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories agreeing on the arguments both programs end at `propagate` of the edge weights and at the edge
    weights, of the same arguments. -/
theorem algebraic : Cert.algebraic_KernelIdeal_ReferenceIdeal := by
  intro m ρ m' ρ' _ hagree
  refine ⟨fun c => Cert.KernelIdeal.Around.result0 m c, fun c => Cert.KernelIdeal.Around.result1 m c,
    Cert.KernelIdeal.Around.run_results m ρ, ?_⟩
  refine (θ_run Cert.ReferenceIdeal.defs _ _).mono (fun _ h c => ?_) (Cert.ReferenceIdeal.Value.run (F := Ideal) m' ρ')
  obtain ⟨h0, h1, ha⟩ := h c
  obtain ⟨g0, g1, g2, g3, g4, g5, g6⟩ := hagree c
  refine ⟨h0.trans ?_, h1.trans ?_, ha⟩
  · refine (Cert.RefTail.res_out0_eq m' c).trans ?_
    rw [g0, g1, g2, g3, g4, g5, g6]
    exact (Cert.KernelIdeal.Around.result0_eq m c).symm
  · show Cert.RefTail.edgeWeights (F := Ideal) _ _ _ = _
    rw [g0, g3, g4]
    exact (Cert.KernelIdeal.Around.edge_bridge m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
